-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S100000x64 : Shape := ⟨2, ![100000, 64]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x100000 .f32) (main_arg1 : FVec F S100000x64 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x100000 : Shape := ⟨2, ![1024, 100000]⟩
abbrev S100000x64 : Shape := ⟨2, ![100000, 64]⟩
abbrev S1024x64 : Shape := ⟨2, ![1024, 64]⟩
abbrev S1024x2048 : Shape := ⟨2, ![1024, 2048]⟩
abbrev S2048x64 : Shape := ⟨2, ![2048, 64]⟩
abbrev S1024x352 : Shape := ⟨2, ![1024, 352]⟩
abbrev S352x64 : Shape := ⟨2, ![352, 64]⟩
abbrev S2048 : Shape := ⟨1, ![2048]⟩
abbrev S2048x1 : Shape := ⟨2, ![2048, 1]⟩

abbrev nBuf : Space → Nat
  | .hbm => 4
  | .vmem => 12
  | .smem => 0
  | _ => 0

abbrev bufTy : (tb : Table) → Fin (tcTables nBuf tb) → BufTy
  | .hbm, ⟨0, _⟩ => ⟨S1024x100000, .f32⟩
  | .hbm, ⟨1, _⟩ => ⟨S100000x64, .f32⟩
  | .hbm, ⟨2, _⟩ => ⟨S1024x64, .f32⟩
  | .hbm, ⟨3, _⟩ => ⟨S1024x100000, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x2048, .f32⟩
  | .local _ .vmem, ⟨7, _⟩ => ⟨S1024x2048, .f32⟩
  | .local _ .vmem, ⟨8, _⟩ => ⟨S2048x64, .f32⟩
  | .local _ .vmem, ⟨9, _⟩ => ⟨S2048x64, .f32⟩
  | .local _ .vmem, ⟨10, _⟩ => ⟨S1024x2048, .f32⟩
  | .local _ .vmem, ⟨11, _⟩ => ⟨S1024x2048, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c0_i32_5 : BitVec 32 := 0#32
  let v16 : BitVec 1 := Scalar.cmpi .eq arg0 c0_i32_5
  let v17 : BitVec 32 := Scalar.extui v16
  let c0_i32_6 : BitVec 32 := 0#32
  let v18 : BitVec 1 := Scalar.cmpi .ne v17 c0_i32_6
  v18

def k0_cond3 (i : grid0.Coords) : BitVec 1 :=
  let arg0 : BitVec 32 := BitVec.ofNat 32 (i 0).val
  let c0_i32_7 : BitVec 32 := 0#32
  let v19 : BitVec 1 := Scalar.cmpi .sgt arg0 c0_i32_7
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x2048_S1024x352_0_1696 : ∀ a, (![0, 1696] : Fin 2 → Nat) a + S1024x352.size a ≤ S1024x2048.size a
  h_S1024x352 : 0 < S1024x352.numel
  shapeCasts_S1024x352_S1024x352 : S1024x352.ShapeCasts S1024x352
  inb_S2048x64_S352x64_1696_0 : ∀ a, (![1696, 0] : Fin 2 → Nat) a + S352x64.size a ≤ S2048x64.size a
  h_S352x64 : 0 < S352x64.numel
  shapeCasts_S352x64_S352x64 : S352x64.ShapeCasts S352x64
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  broadcasts_S2048x1_S2048x64 : S2048x1.Broadcasts S2048x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  dot_S1024x2048_S2048x64_S1024x64_1_0_0_1_n_n_wf : DotDims.WF S1024x2048 S2048x64 S1024x64 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x2048.size a < S1024x100000.size a
  hwx0_0 : ∀ i : grid0.Coords, EltTy.bits .f32 = 32 ∨ (Rect.unit (s := S1024x100000) (fun a => cc0_transform_0 i a * S1024x2048.size a) (fun a => (Pipeline.Clip.of (cc0_transform_0 i a) (S1024x2048.size a) (S1024x100000.size a)).extent (S1024x2048.size a)) fun a => Pipeline.Clip.inb (Pipeline.Clip.ok_of (hstart0_0 i a))).WholeWords (EltTy.packing .f32)
  hwxs0_0 : ∀ i : grid0.Coords, EltTy.bits .f32 = 32 ∨ (Rect.unit (s := S1024x2048) (fun _ => 0) (fun a => (Pipeline.Clip.of (cc0_transform_0 i a) (S1024x2048.size a) (S1024x100000.size a)).extent (S1024x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x64.size a < S100000x64.size a
  hwx0_1 : ∀ i : grid0.Coords, EltTy.bits .f32 = 32 ∨ (Rect.unit (s := S100000x64) (fun a => cc0_transform_1 i a * S2048x64.size a) (fun a => (Pipeline.Clip.of (cc0_transform_1 i a) (S2048x64.size a) (S100000x64.size a)).extent (S2048x64.size a)) fun a => Pipeline.Clip.inb (Pipeline.Clip.ok_of (hstart0_1 i a))).WholeWords (EltTy.packing .f32)
  hwxs0_1 : ∀ i : grid0.Coords, EltTy.bits .f32 = 32 ∨ (Rect.unit (s := S2048x64) (fun _ => 0) (fun a => (Pipeline.Clip.of (cc0_transform_1 i a) (S2048x64.size a) (S100000x64.size a)).extent (S2048x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1024x64.size a
  hwx1_0 : ∀ i : grid1.Coords, EltTy.bits .f32 = 32 ∨ (Rect.block (s := S1024x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x2048.size a < S1024x100000.size a
  hwx1_1 : ∀ i : grid1.Coords, EltTy.bits .f32 = 32 ∨ (Rect.unit (s := S1024x100000) (fun a => cc1_transform_1 i a * S1024x2048.size a) (fun a => (Pipeline.Clip.of (cc1_transform_1 i a) (S1024x2048.size a) (S1024x100000.size a)).extent (S1024x2048.size a)) fun a => Pipeline.Clip.inb (Pipeline.Clip.ok_of (hstart1_1 i a))).WholeWords (EltTy.packing .f32)
  hwxs1_1 : ∀ i : grid1.Coords, EltTy.bits .f32 = 32 ∨ (Rect.unit (s := S1024x2048) (fun _ => 0) (fun a => (Pipeline.Clip.of (cc1_transform_1 i a) (S1024x2048.size a) (S1024x100000.size a)).extent (S1024x2048.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S2048x64.size a < S100000x64.size a
  hwx1_2 : ∀ i : grid1.Coords, EltTy.bits .f32 = 32 ∨ (Rect.unit (s := S100000x64) (fun a => cc1_transform_2 i a * S2048x64.size a) (fun a => (Pipeline.Clip.of (cc1_transform_2 i a) (S2048x64.size a) (S100000x64.size a)).extent (S2048x64.size a)) fun a => Pipeline.Clip.inb (Pipeline.Clip.ok_of (hstart1_2 i a))).WholeWords (EltTy.packing .f32)
  hwxs1_2 : ∀ i : grid1.Coords, EltTy.bits .f32 = 32 ∨ (Rect.unit (s := S2048x64) (fun _ => 0) (fun a => (Pipeline.Clip.of (cc1_transform_2 i a) (S2048x64.size a) (S100000x64.size a)).extent (S2048x64.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x2048.size a < S1024x100000.size a
  hwx1_3 : ∀ i : grid1.Coords, EltTy.bits .f32 = 32 ∨ (Rect.unit (s := S1024x100000) (fun a => cc1_transform_3 i a * S1024x2048.size a) (fun a => (Pipeline.Clip.of (cc1_transform_3 i a) (S1024x2048.size a) (S1024x100000.size a)).extent (S1024x2048.size a)) fun a => Pipeline.Clip.inb (Pipeline.Clip.ok_of (hstart1_3 i a))).WholeWords (EltTy.packing .f32)
  hwxs1_3 : ∀ i : grid1.Coords, EltTy.bits .f32 = 32 ∨ (Rect.unit (s := S1024x2048) (fun _ => 0) (fun a => (Pipeline.Clip.of (cc1_transform_3 i a) (S1024x2048.size a) (S1024x100000.size a)).extent (S1024x2048.size a)) fun a => (Nat.zero_add _).trans_le (Pipeline.Clip.extent_le (Pipeline.Clip.ok_of (hstart1_3 i a)))).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpecClip (Memref.whole main_arg0) S1024x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2048x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1024x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) && !(k0_cond3 i == 1#1) | ⟨_ + 3, h⟩ => absurd h (Nat.not_lt.2 (Nat.le_add_left _ _))

abbrev win1_0 : Pipeline.Window sig grid1 :=
  Pipeline.Window.ofSpec (Memref.whole main_v0) S1024x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg0) S1024x2048.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg1) S2048x64.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v1) S1024x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x100000 : Shape := ⟨2, ![1024, 100000]⟩
abbrev S100000x64 : Shape := ⟨2, ![100000, 64]⟩
abbrev S_ : Shape := ⟨0, ![]⟩
abbrev S100000 : Shape := ⟨1, ![100000]⟩
abbrev S100000x1 : Shape := ⟨2, ![100000, 1]⟩
abbrev S1024x64 : Shape := ⟨2, ![1024, 64]⟩
abbrev S64x100000 : Shape := ⟨2, ![64, 100000]⟩

abbrev nBuf : Space → Nat
  | .hbm => 24
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x64, .f32⟩
  | .hbm, ⟨2, _⟩ => ⟨S100000x64, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S100000x1, .f32⟩
  | .hbm, ⟨7, _⟩ => ⟨S_, .f32⟩
  | .hbm, ⟨8, _⟩ => ⟨S100000x1, .f32⟩
  | .hbm, ⟨9, _⟩ => ⟨S100000x1, .f32⟩
  | .hbm, ⟨10, _⟩ => ⟨S100000x64, .f32⟩
  | .hbm, ⟨11, _⟩ => ⟨S100000x64, .f32⟩
  | .hbm, ⟨12, _⟩ => ⟨S1024x64, .f32⟩
  | .hbm, ⟨13, _⟩ => ⟨S64x100000, .f32⟩
  | .hbm, ⟨14, _⟩ => ⟨S1024x100000, .f32⟩
  | .hbm, ⟨15, _⟩ => ⟨S1024x100000, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024x100000, .f32⟩
  | .hbm, ⟨23, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S100000x64_S64x100000_1_0 : S100000x64.Transposes [1, 0] S64x100000
  bcast_S_S1024x100000 : S_.BroadcastsInDim S1024x100000 (![] : Fin 0 → Fin S1024x100000.rank)
  dot_S1024x100000_S100000x64_S1024x64_1_0_0_1_n_n_wf : DotDims.WF S1024x100000 S100000x64 S1024x64 [1] [0] [0] [1] [] []
  dot_S1024x64_S64x100000_S1024x100000_1_0_0_1_n_n_wf : DotDims.WF S1024x64 S64x100000 S1024x100000 [1] [0] [0] [1] [] []

variable [Facts₀]

def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Body1.lean ====
/-
  The body of the second region at one grid point, over abstract buffer contents: the four staging buffers hold
  the projection `xa`, a block of `x`, a block of `A` and anything; the body loads the first three whole, stores
  into the fourth the clipped value `min 6 (max 0 (xa · Anᵀ − x))` of the block (the payload `k1_pay1` of the
  three loads) through the whole-buffer rectangle, and leaves the first three as they were.
-/
import proofs.«118275_g39109972197717_cont_8to1_b_158_6_alg».proof.Proof.Gen.KernelIdeal.Skeleton
import proofs.«118275_g39109972197717_cont_8to1_b_158_6_alg».proof.Proof.Gen.KernelIdeal.Launch
import Idealize.ShloMosaic.Lib.Pipeline.Kit
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two-coordinate zero offset, however it is spelt. -/
theorem zero2 : (![0, 0] : Fin 2 → ℕ) = fun _ => 0 := by
  funext a; fin_cases a <;> rfl

/-- A load through the whole-shape rectangle at zero offsets reads the contents. -/
theorem readAt_unit_zero {sig : RefSig} {κ : Kind} {sp : Space} {S : Shape} {e : EltTy} {Val : EltTy → Type}
    (v : View sig κ sp S e) {off : Fin S.rank → ℕ} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- One store through the whole-shape rectangle at zero offsets leaves its payload. -/
theorem read_writes_unit_zero {sig : RefSig} {κ : Kind} {sp : Space} {S : Shape} {e : EltTy} {Val : EltTy → Type}
    [∀ e, Nonempty (Val e)]
    (v : View sig κ sp S e) {off : Fin S.rank → ℕ} (h : off = fun _ => 0)
    (inb : ∀ a, off a + S.size a ≤ S.size a) (f : v.ty.Contents Val) (w : S.Idx → Val e) :
    v.read Val (v.writes Val f [⟨Rect.unit off S.size inb, w⟩]) = w :=
  (View.read_writes_eq_canon v f _ (fun y => ⟨_, List.mem_singleton_self _, View.mem_set_unit_zero h inb y⟩)).trans
    (View.canon_unit_zero h inb w)

set_option maxHeartbeats 1000000 in
/-- The body of region 1 on whole staging memrefs at contents `X1` (the projection), `X2` (the block of `x`),
    `X3` (the block of `A`) and `X4` (anything) runs to the continuation holding the first three unchanged and the
    fourth at `k1_pay1 X3 X1 X2`: each whole-rectangle load reads the contents, and the one whole-rectangle store
    leaves its payload. -/
theorem sound_kernel1 (c : Dev nD) (E : Set ℕ) (i : grid1.Coords)
    (M1 : Memref sig .tc .vmem S1024x64 .f32) (h1 : M1.IsWhole)
    (M2 : Memref sig .tc .vmem S1024x2048 .f32) (h2 : M2.IsWhole)
    (M3 : Memref sig .tc .vmem S2048x64 .f32) (h3 : M3.IsWhole)
    (M4 : Memref sig .tc .vmem S1024x2048 .f32) (h4 : M4.IsWhole)
    (X1 : S1024x64.Idx → Elt F .f32) (X2 : S1024x2048.Idx → Elt F .f32)
    (X3 : S2048x64.Idx → Elt F .f32) (X4 : S1024x2048.Idx → Elt F .f32) (K : PUnit → sProp 𝕄) :
    iprop((owns (c : Thread nD τ) M1 fullShare X1 ∗ owns (c : Thread nD τ) M2 fullShare X2
          ∗ owns (c : Thread nD τ) M3 fullShare X3 ∗ owns (c : Thread nD τ) M4 fullShare X4)
        ∗ (iprop(owns (c : Thread nD τ) M1 fullShare X1 ∗ owns (c : Thread nD τ) M2 fullShare X2
          ∗ owns (c : Thread nD τ) M3 fullShare X3 ∗ owns (c : Thread nD τ) M4 fullShare (k1_pay1 X3 X1 X2)) -∗ K ⟨⟩))
      ⊢ wp frame (wpE (defs₀ (F := F)) Variants.none c none) E (cc1__out_kernel i M1 h1 M2 h2 M3 h3 M4 h4) K := by
  simp only [cc1__out_kernel_eq_skeleton]; unfold cc1__out_kernel_skel
  unfold owns
  iintro ⟨⟨⟨%f1, %hf1, H1⟩, ⟨%f2, %hf2, H2⟩, ⟨%f3, %hf3, H3⟩, ⟨%f4, %hf4, H4⟩⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (read_writes_unit_zero M4.view zero2 _ f4 _).trans ?_
  rw [readAt_unit_zero M3.view zero2, readAt_unit_zero M1.view zero2, readAt_unit_zero M2.view zero2]

end Cert.KernelIdeal.Hand
end
-- ==== Proof.Body0.lean ====
/-
  The body of the first region at one grid point, over abstract buffer contents. The three staging buffers hold a
  block of `x`, a block of `A` and the accumulator `xa`. The body's three conditionals test the grid coordinate
  `t` (below 49): "t = 48", "t = 0", "0 < t". So there are three cases:
    * t = 0: the accumulator is overwritten by the product of the two blocks;
    * 0 < t < 48: the product is added to the accumulator;
    * t = 48: the tails of the two blocks that lie past the arrays' end are zeroed first, and the product of the
      zero-tailed blocks is added to the accumulator.
-/
import proofs.«118275_g39109972197717_cont_8to1_b_158_6_alg».proof.Proof.Gen.KernelIdeal.Skeleton
import proofs.«118275_g39109972197717_cont_8to1_b_158_6_alg».proof.Proof.Gen.KernelIdeal.Launch
import Idealize.ShloMosaic.Lib.Pipeline.Kit
import Idealize.ShloMosaic.Lib.Pipeline.Frame
import Idealize.ShloMosaic.Lib.Pipeline.FrameBody
import Idealize.ShloMosaic.Lib.Tactic
import Idealize.ShloMosaic.Lib.Pipeline.Value
import Idealize.ShloMosaic.Lib.WritesUnit
import proofs.«118275_g39109972197717_cont_8to1_b_158_6_alg».proof.Proof.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The three conditions of the accumulating body, in closed form -/

/-- The word the first conditional tests: "the grid coordinate is 48". -/
def cond1 (i : grid0.Coords) : BitVec 1 :=
  Scalar.cmpi .ne (Scalar.extui (Scalar.cmpi .eq (BitVec.ofNat 32 (i 0).val) 48#32)) 0#32

theorem cond1_fin : ∀ n : Fin 49,
    (Scalar.cmpi .ne (Scalar.extui (Scalar.cmpi .eq (BitVec.ofNat 32 n.val) 48#32)) 0#32 = 1#1) ↔ n.val = 48 := by
  decide

theorem cond2_fin : ∀ n : Fin 49,
    (Scalar.cmpi .ne (Scalar.extui (Scalar.cmpi .eq (BitVec.ofNat 32 n.val) 0#32)) 0#32 = 1#1) ↔ n.val = 0 := by
  decide

theorem cond3_fin : ∀ n : Fin 49,
    (Scalar.cmpi .ne (Scalar.extui (Scalar.cmpi .sgt (BitVec.ofNat 32 n.val) 0#32)) 0#32 = 1#1) ↔ 0 < n.val := by
  decide

theorem cond1_iff (i : grid0.Coords) : cond1 i = 1#1 ↔ (i 0).val = 48 := cond1_fin (i 0)
theorem cond2_iff (i : grid0.Coords) : k0_cond2 i = 1#1 ↔ (i 0).val = 0 := cond2_fin (i 0)
theorem cond3_iff (i : grid0.Coords) : k0_cond3 i = 1#1 ↔ 0 < (i 0).val := cond3_fin (i 0)

/-! ## The last point's zeroed tails -/

/-- contents with the columns from 1696 on replaced by zero -/
def ztail0 (X : S1024x2048.Idx → Elt F .f32) : S1024x2048.Idx → Elt F .f32 :=
  fun j => if (j 1).val < 1696 then X j else Scalar.ofBits .f32 0x00000000#32

/-- contents with the rows from 1696 on replaced by zero -/
def ztail1 (X : S2048x64.Idx → Elt F .f32) : S2048x64.Idx → Elt F .f32 :=
  fun j => if (j 0).val < 1696 then X j else Scalar.ofBits .f32 0x00000000#32

/-- The payload of the store into the block of `x` is zero at every index. -/
theorem k0_pay1_apply (x : S1024x352.Idx) : k0_pay1 (F := F) x = Scalar.ofBits .f32 0x00000000#32 := by
  unfold k0_pay1
  exact congrFun (shapeCast_self _ _) x

/-- The payload of the store into the block of `A` is zero at every index. -/
theorem k0_pay2_apply (x : S352x64.Idx) : k0_pay2 (F := F) x = Scalar.ofBits .f32 0x00000000#32 := by
  unfold k0_pay2
  exact congrFun (shapeCast_self _ _) x

/-- A buffer of the shape of a block of `x`, after the zero store through columns `1696 ..< 2048` of every row,
    reads as its earlier contents with those columns zero: an index under the store's rectangle reads the store's
    payload, any other index what the buffer held. -/
theorem read_writes_ztail0 {sig : RefSig} {κ : Kind} {sp : Space} (v : View sig κ sp S1024x2048 .f32)
    (f : v.ty.Contents (Elt F)) :
    v.read (Elt F) (v.writes (Elt F) f
        [⟨Rect.unit (s := S1024x2048) ![0, 1696] S1024x352.size inb_S1024x2048_S1024x352_0_1696, k0_pay1 (F := F)⟩])
      = ztail0 (v.read (Elt F) f) := by
  funext y
  rw [View.read_writes_cons_unit v f inb_S1024x2048_S1024x352_0_1696 (k0_pay1 (F := F)) [] y rfl]
  unfold ztail0
  split
  · rename_i h
    have h1 : 1696 ≤ (y 1).val := (h 1).1
    rw [if_neg (by omega)]
    exact k0_pay1_apply _
  · rename_i h
    by_cases hy : (y 1).val < 1696
    · rw [if_pos hy]; rfl
    · exfalso
      apply h
      have h0 : (y 0).val < 1024 := (y 0).isLt
      have h1 : (y 1).val < 2048 := (y 1).isLt
      refine Fin.forall_fin_two.mpr ⟨⟨Nat.zero_le _, ?_⟩, ⟨?_, ?_⟩⟩
      · show (y 0).val < 0 + 1024; omega
      · show 1696 ≤ (y 1).val; omega
      · show (y 1).val < 1696 + 352; omega

/-- A buffer of the shape of a block of `A`, after the zero store through rows `1696 ..< 2048`, reads as its
    earlier contents with those rows zero. -/
theorem read_writes_ztail1 {sig : RefSig} {κ : Kind} {sp : Space} (v : View sig κ sp S2048x64 .f32)
    (f : v.ty.Contents (Elt F)) :
    v.read (Elt F) (v.writes (Elt F) f
        [⟨Rect.unit (s := S2048x64) ![1696, 0] S352x64.size inb_S2048x64_S352x64_1696_0, k0_pay2 (F := F)⟩])
      = ztail1 (v.read (Elt F) f) := by
  funext y
  rw [View.read_writes_cons_unit v f inb_S2048x64_S352x64_1696_0 (k0_pay2 (F := F)) [] y rfl]
  unfold ztail1
  split
  · rename_i h
    have h1 : 1696 ≤ (y 0).val := (h 0).1
    rw [if_neg (by omega)]
    exact k0_pay2_apply _
  · rename_i h
    by_cases hy : (y 0).val < 1696
    · rw [if_pos hy]; rfl
    · exfalso
      apply h
      have h0 : (y 0).val < 2048 := (y 0).isLt
      have h1 : (y 1).val < 64 := (y 1).isLt
      refine Fin.forall_fin_two.mpr ⟨⟨?_, ?_⟩, ⟨Nat.zero_le _, ?_⟩⟩
      · show 1696 ≤ (y 0).val; omega
      · show (y 0).val < 1696 + 352; omega
      · show (y 1).val < 0 + 64; omega

/-! ## The body's three cases -/

set_option maxHeartbeats 1000000 in
/-- At the first point the body loads its blocks of `x` and `A` whole and stores their product `k0_pay3` over
    the accumulator, whatever it held. -/
theorem sound_kernel0_first (c : Dev nD) (E : Set ℕ) (i : grid0.Coords) (hi : (i 0).val = 0)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (X0) ∗ owns (c : Thread nD τ) M1 fullShare (X1)
          ∗ owns (c : Thread nD τ) M2 fullShare (k0_pay3 X1 X0)) -∗ K ⟨⟩))
      ⊢ wp frame (wpE (defs₀ (F := F)) Variants.none c none) E (cc0__xa_kernel i M0 h0 M1 h1 M2 h2) K := by
  have hc1 : ¬ (cond1 i = 1#1) := fun h => by have := (cond1_iff i).mp h; omega
  have hc2 : k0_cond2 i = 1#1 := (cond2_iff i).mpr hi
  have hc3 : ¬ (k0_cond3 i = 1#1) := fun h => by have := (cond3_iff i).mp h; omega
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero M2.view zero2 _ f2 _).trans ?_
  rw [readAt_unit_zero M1.view zero2, readAt_unit_zero M0.view zero2]

set_option maxHeartbeats 1000000 in
/-- At a point strictly between the first and the last the body loads the two blocks and the accumulator whole
    and stores the accumulator plus the blocks' product, `k0_pay4`. -/
theorem sound_kernel0_mid (c : Dev nD) (E : Set ℕ) (i : grid0.Coords) (hi : 0 < (i 0).val ∧ (i 0).val < 48)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (X0) ∗ owns (c : Thread nD τ) M1 fullShare (X1)
          ∗ owns (c : Thread nD τ) M2 fullShare (k0_pay4 X1 X0 X2)) -∗ K ⟨⟩))
      ⊢ wp frame (wpE (defs₀ (F := F)) Variants.none c none) E (cc0__xa_kernel i M0 h0 M1 h1 M2 h2) K := by
  have hc1 : ¬ (cond1 i = 1#1) := fun h => by have := (cond1_iff i).mp h; omega
  have hc2 : ¬ (k0_cond2 i = 1#1) := fun h => by have := (cond2_iff i).mp h; omega
  have hc3 : k0_cond3 i = 1#1 := (cond3_iff i).mpr hi.1
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1 hf2
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero M2.view zero2 _ f2 _).trans ?_
  rw [readAt_unit_zero M1.view zero2, readAt_unit_zero M0.view zero2, readAt_unit_zero M2.view zero2]

set_option maxHeartbeats 1000000 in
/-- At the last point the body first zeroes columns `1696 ..` of its block of `x` and rows `1696 ..` of its block
    of `A` (the part past the arrays' end), then adds the product of the two zero-tailed blocks to the accumulator:
    the whole-buffer loads after the two partial stores read the zero-tailed contents. -/
theorem sound_kernel0_last (c : Dev nD) (E : Set ℕ) (i : grid0.Coords) (hi : (i 0).val = 48)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (ztail0 X0) ∗ owns (c : Thread nD τ) M1 fullShare (ztail1 X1)
          ∗ owns (c : Thread nD τ) M2 fullShare (k0_pay4 (ztail1 X1) (ztail0 X0) X2)) -∗ K ⟨⟩))
      ⊢ wp frame (wpE (defs₀ (F := F)) Variants.none c none) E (cc0__xa_kernel i M0 h0 M1 h1 M2 h2) K := by
  have hc1 : cond1 i = 1#1 := (cond1_iff i).mpr hi
  have hc2 : ¬ (k0_cond2 i = 1#1) := fun h => by have := (cond2_iff i).mp h; omega
  have hc3 : k0_cond3 i = 1#1 := (cond3_iff i).mpr (by omega)
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1 hf2
  sl_exec (disch := first | sl_exact hc1 | sl_exact hc2 | sl_exact hc3)
  sl_step
  iapply Hk
  isplitl [H0]
  · iexists _; isplitr
    swap; · iexact H0
    ipureintro
    sl_unfold_run_names
    exact read_writes_ztail0 M0.view f0
  isplitl [H1]
  · iexists _; isplitr
    swap; · iexact H1
    ipureintro
    sl_unfold_run_names
    exact read_writes_ztail1 M1.view f1
  iexists _; isplitr
  swap; · iexact H2
  ipureintro
  refine (read_writes_unit_zero M2.view zero2 _ f2 _).trans ?_
  sl_unfold_run_names
  rw [readAt_unit_zero M1.view zero2, readAt_unit_zero M0.view zero2, readAt_unit_zero M2.view zero2,
    read_writes_ztail0, read_writes_ztail1]

end Cert.KernelIdeal.Hand
end
-- ==== Proof.Data0.lean ====
import proofs.«118275_g39109972197717_cont_8to1_b_158_6_alg».proof.Proof.Gen.KernelIdeal.Skeleton
import proofs.«118275_g39109972197717_cont_8to1_b_158_6_alg».proof.Proof.Gen.KernelIdeal.Launch
import proofs.«118275_g39109972197717_cont_8to1_b_158_6_alg».proof.Proof.Gen.KernelIdeal.Points
import proofs.«118275_g39109972197717_cont_8to1_b_158_6_alg».proof.Proof.Body0
import Idealize.ShloMosaic.Lib.Pipeline.FrameBody
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first region: the projection accumulated over 49 stretches of 2048 items -/

/-- The zero word. -/
abbrev zero32 : Elt F .f32 := Scalar.ofBits .f32 0x00000000#32

/-- Window `w`'s block at point `t`: its part inside the array, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The stretch of `x` the body multiplies at point `t`: columns `2048 t ‥ 2048 t + 2047`, zero past the array's last column. -/
def xin0 (c : Dev nD) (t : Fin cfg0.N) : S1024x2048.Idx → Elt F .f32 :=
  win0_0.fill (grid0.coords t) (fun _ => zero32) (blk0 V c 0 t)

/-- The stretch of `A` at point `t`: rows `2048 t ‥ 2048 t + 2047`, zero past the array's last row. -/
def ain0 (c : Dev nD) (t : Fin cfg0.N) : S2048x64.Idx → Elt F .f32 :=
  win0_1.fill (grid0.coords t) (fun _ => zero32) (blk0 V c 1 t)

/-- The accumulator after point `n`: the first stretch's product, then one more stretch's product added per point. -/
def acc0 (c : Dev nD) : ℕ → S1024x64.Idx → Elt F .f32
  | 0 => k0_pay3 (ain0 V c ⟨0, by decide⟩) (xin0 V c ⟨0, by decide⟩)
  | n + 1 => if h : n + 1 < cfg0.N then k0_pay4 (ain0 V c ⟨n + 1, h⟩) (xin0 V c ⟨n + 1, h⟩) (acc0 c n) else acc0 c n

theorem acc0_zero (c : Dev nD) (t : Fin cfg0.N) (ht : t.val = 0) : acc0 V c t.val = k0_pay3 (ain0 V c t) (xin0 V c t) := by
  obtain ⟨n, hn⟩ := t; cases ht; rfl

theorem acc0_succ (c : Dev nD) (t : Fin cfg0.N) (ht : t.val ≠ 0) :
    acc0 V c t.val = k0_pay4 (ain0 V c t) (xin0 V c t) (acc0 V c (t.val - 1)) := by
  obtain ⟨n, hn⟩ := t
  cases n with
  | zero => exact absurd rfl ht
  | succ n => show acc0 V c (n + 1) = _; rw [acc0, dif_pos hn]; rfl

/-- The proof data of the first region on core `c`: the arrays as the region finds them; after the body the two input
    buffers hold their stretches (zero past the arrays' end) and the output buffer the accumulator. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => ain0 V c t
    | ⟨2, _⟩ => acc0 V c t.val
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = xin0 V c t := by dsimp only [dat0]
theorem after0_1 (c : Dev nD) (t : Fin cfg0.N) : (dat0 V c).after 1 t = ain0 V c t := by dsimp only [dat0]
theorem after0_2 (c : Dev nD) (t : Fin cfg0.N) : (dat0 V c).after 2 t = acc0 V c t.val := by dsimp only [dat0]

/-! ### How much of each block lies inside its array -/

/-- Of `x`'s block every row and, but at the last point, every column lies inside the array; at the last point the first 1696 columns. -/
theorem xsize0_0 : ∀ t : Fin cfg0.N, win0_0.xsize (grid0.coords t) 0 = 1024 ∧ win0_0.xsize (grid0.coords t) 1 = (if t.val = 48 then 1696 else 2048) :=
  (by decide +kernel : ∀ t : Fin grid0.N, win0_0.xsize (grid0.coords t) 0 = 1024 ∧ win0_0.xsize (grid0.coords t) 1 = (if t.val = 48 then 1696 else 2048))
/-- Of `A`'s block every column and, but at the last point, every row; at the last point the first 1696 rows. -/
theorem xsize0_1 : ∀ t : Fin cfg0.N, win0_1.xsize (grid0.coords t) 0 = (if t.val = 48 then 1696 else 2048) ∧ win0_1.xsize (grid0.coords t) 1 = 64 :=
  (by decide +kernel : ∀ t : Fin grid0.N, win0_1.xsize (grid0.coords t) 0 = (if t.val = 48 then 1696 else 2048) ∧ win0_1.xsize (grid0.coords t) 1 = 64)

theorem moved0_0 (t : Fin cfg0.N) (j : S1024x2048.Idx) :
    win0_0.moved (grid0.coords t) j = true ↔ (t.val = 48 → (j 1).val < 1696) := by
  rw [Window.moved_iff]
  have h0 : (j 0).val < 1024 := (j 0).isLt
  have h1 : (j 1).val < 2048 := (j 1).isLt
  obtain ⟨e0, e1⟩ := xsize0_0 t
  constructor
  · intro h ht; have := h 1; rw [e1, if_pos ht] at this; exact this
  · intro h a
    match a with
    | ⟨0, _⟩ => show (j 0).val < win0_0.xsize (grid0.coords t) 0; rw [e0]; exact h0
    | ⟨1, _⟩ =>
      show (j 1).val < win0_0.xsize (grid0.coords t) 1; rw [e1]
      by_cases ht : t.val = 48
      · rw [if_pos ht]; exact h ht
      · rw [if_neg ht]; exact h1

theorem moved0_1 (t : Fin cfg0.N) (j : S2048x64.Idx) :
    win0_1.moved (grid0.coords t) j = true ↔ (t.val = 48 → (j 0).val < 1696) := by
  rw [Window.moved_iff]
  have h0 : (j 0).val < 2048 := (j 0).isLt
  have h1 : (j 1).val < 64 := (j 1).isLt
  obtain ⟨e0, e1⟩ := xsize0_1 t
  constructor
  · intro h ht; have := h 0; rw [e0, if_pos ht] at this; exact this
  · intro h a
    match a with
    | ⟨0, _⟩ =>
      show (j 0).val < win0_1.xsize (grid0.coords t) 0; rw [e0]
      by_cases ht : t.val = 48
      · rw [if_pos ht]; exact h ht
      · rw [if_neg ht]; exact h0
    | ⟨1, _⟩ => show (j 1).val < win0_1.xsize (grid0.coords t) 1; rw [e1]; exact h1

/-- Before the last point a fetched block fills its whole buffer: nothing of what the buffer held is left. -/
theorem fill0_0_full (t : Fin cfg0.N) (ht : t.val ≠ 48) (d d' : S1024x2048.Idx → Elt F .f32) (g) :
    win0_0.fill (grid0.coords t) d g = win0_0.fill (grid0.coords t) d' g := by
  funext j
  have hm : win0_0.moved (grid0.coords t) j = true := (moved0_0 t j).mpr fun h => absurd h ht
  unfold Window.fill; rw [dif_pos hm, dif_pos hm]
theorem fill0_1_full (t : Fin cfg0.N) (ht : t.val ≠ 48) (d d' : S2048x64.Idx → Elt F .f32) (g) :
    win0_1.fill (grid0.coords t) d g = win0_1.fill (grid0.coords t) d' g := by
  funext j
  have hm : win0_1.moved (grid0.coords t) j = true := (moved0_1 t j).mpr fun h => absurd h ht
  unfold Window.fill; rw [dif_pos hm, dif_pos hm]

/-- At the last point, zeroing the columns from 1696 on of a fetched block leaves the block with zeros past the array's end,
    whatever the buffer held there. -/
theorem ztail0_fill (t : Fin cfg0.N) (ht : t.val = 48) (d : S1024x2048.Idx → Elt F .f32) (g) :
    ztail0 (win0_0.fill (grid0.coords t) d g) = win0_0.fill (grid0.coords t) (fun _ => zero32) g := by
  funext j
  unfold ztail0 Window.fill
  by_cases hm : win0_0.moved (grid0.coords t) j = true
  · rw [if_pos ((moved0_0 t j).mp hm ht), dif_pos hm, dif_pos hm]
  · rw [if_neg (fun h => hm ((moved0_0 t j).mpr fun _ => h)), dif_neg hm]
theorem ztail1_fill (t : Fin cfg0.N) (ht : t.val = 48) (d : S2048x64.Idx → Elt F .f32) (g) :
    ztail1 (win0_1.fill (grid0.coords t) d g) = win0_1.fill (grid0.coords t) (fun _ => zero32) g := by
  funext j
  unfold ztail1 Window.fill
  by_cases hm : win0_1.moved (grid0.coords t) j = true
  · rw [if_pos ((moved0_1 t j).mp hm ht), dif_pos hm, dif_pos hm]
  · rw [if_neg (fun h => hm ((moved0_1 t j).mpr fun _ => h)), dif_neg hm]

/-! ### What the body finds -/

/-- The output buffer is stored at every point: no point is idle for it. -/
theorem live0 : ∀ (w : Fin cfg0.W) (i : cfg0.grid.Coords), cfg0.idle w i = false :=
  (by decide +kernel : ∀ (w : Fin 3) (i : grid0.Coords), idle0 w i = false)

theorem before0_0 (c : Dev nD) (t : Fin cfg0.N) (d) :
    (dat0 V c).before 0 t d = win0_0.fill (grid0.coords t) d (blk0 V c 0 t) := by
  rw [(dat0 V c).before_fetched 0 t (fetch0_0 t)]; unfold Dat.fetched Dat.blockOf; dsimp only [dat0]; rfl
theorem before0_1 (c : Dev nD) (t : Fin cfg0.N) (d) :
    (dat0 V c).before 1 t d = win0_1.fill (grid0.coords t) d (blk0 V c 1 t) := by
  rw [(dat0 V c).before_fetched 1 t (fetch0_1 t)]; unfold Dat.fetched Dat.blockOf; dsimp only [dat0]; rfl
theorem before0_2_first (c : Dev nD) (t : Fin cfg0.N) (ht : t.val = 0) (d) : (dat0 V c).before 2 t d = d :=
  (dat0 V c).before_out_reset 2 rfl t (.inl ht) d
theorem before0_2_later (c : Dev nD) (t : Fin cfg0.N) (ht : t.val ≠ 0) (d) : (dat0 V c).before 2 t d = acc0 V c (t.val - 1) := by
  rw [(dat0 V c).before_out_kept 2 rfl t ht ?_ (live0 2) (fun _ _ => rfl) d, after0_2]
  have h := t.isLt
  have hN : cfg0.N = 49 := N_0
  exact Bool.eq_false_iff.mpr fun hf => by
    have := (flush0_2 ⟨t.val - 1, Nat.lt_of_le_of_lt (Nat.sub_le _ _) t.isLt⟩).mp hf
    simp only at this; omega

/-! ### The body obligation -/

theorem coords0_val : ∀ t : Fin cfg0.N, ((grid0.coords t) 0).val = t.val :=
  (by decide +kernel : ∀ t : Fin grid0.N, ((grid0.coords t) 0).val = t.val)

theorem cut_after0_0 (c : Dev nD) (t : Fin cfg0.N) : win0_0.cut (grid0.coords t) ((dat0 V c).after 0 t) = blk0 V c 0 t := by
  rw [after0_0]; exact win0_0.cut_fill _ _ _
theorem cut_after0_1 (c : Dev nD) (t : Fin cfg0.N) : win0_1.cut (grid0.coords t) ((dat0 V c).after 1 t) = blk0 V c 1 t := by
  rw [after0_1]; exact win0_1.cut_fill _ _ _

/-- The body at any point: its two input buffers hold their fetched stretches, whatever lies past the arrays' end; the
    output buffer anything at the first point and the accumulator so far at the later ones. By cases on the point:
    the first stores the product, the later ones add it, the last first zeroes what lies past the arrays' end. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
        iprop((dat0 V c).Φ t.succ ∗ (dat0 V c).owesAt () t.succ
          ∗ (∃ d, owns (c : Thread nD τ) (st0_0 t) fullShare (win0_0.fill (grid0.coords t) d (win0_0.cut (grid0.coords t) ((dat0 V c).after 0 t))))
          ∗ (∃ d, owns (c : Thread nD τ) (st0_1 t) fullShare (win0_1.fill (grid0.coords t) d (win0_1.cut (grid0.coords t) ((dat0 V c).after 1 t))))
          ∗ owns (c : Thread nD τ) (st0_2 t) fullShare ((dat0 V c).after 2 t))) := by
  rw [show (dat0 V c).Φ t.succ = (dat0 V c).Φ t.castSucc from rfl,
    show (dat0 V c).owesAt () t.succ = (dat0 V c).owesAt () t.castSucc from rfl,
    cut_after0_0, cut_after0_1, after0_2]
  iintro ⟨HΦ, Ho, ⟨%d0, H0⟩, ⟨%d1, H1⟩, ⟨%d2, H2⟩⟩
  rw [before0_0 V c t d0, before0_1 V c t d1]
  have hN : cfg0.N = 49 := N_0
  have hlt := t.isLt
  by_cases h0 : t.val = 0
  · -- the first point
    rw [before0_2_first V c t h0 d2, acc0_zero V c t h0]
    have h48 : t.val ≠ 48 := by omega
    iapply (sound_kernel0_first (F := F) c Set.univ (grid0.coords t) (by rw [coords0_val]; exact h0) _ _ _ _ _ _
      (win0_0.fill (grid0.coords t) d0 (blk0 V c 0 t)) (win0_1.fill (grid0.coords t) d1 (blk0 V c 1 t)) d2 _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [show ain0 V c t = win0_1.fill (grid0.coords t) d1 (blk0 V c 1 t) from fill0_1_full t h48 _ _ _,
      show xin0 V c t = win0_0.fill (grid0.coords t) d0 (blk0 V c 0 t) from fill0_0_full t h48 _ _ _]
    iexact H2
  · rw [before0_2_later V c t h0 d2, acc0_succ V c t h0]
    by_cases h48 : t.val = 48
    · -- the last point
      iapply (sound_kernel0_last (F := F) c Set.univ (grid0.coords t) (by rw [coords0_val]; exact h48) _ _ _ _ _ _
        (win0_0.fill (grid0.coords t) d0 (blk0 V c 0 t)) (win0_1.fill (grid0.coords t) d1 (blk0 V c 1 t)) (acc0 V c (t.val - 1)) _)
      isplitl [H0 H1 H2]
      · isplitl [H0]; · iexact H0
        isplitl [H1]; · iexact H1
        iexact H2
      rw [ztail0_fill t h48, ztail1_fill t h48]
      iintro ⟨H0, H1, H2⟩
      isplitl [HΦ]; · iexact HΦ
      isplitl [Ho]; · iexact Ho
      isplitl [H0]; · iexists (fun _ => zero32); iexact H0
      isplitl [H1]; · iexists (fun _ => zero32); iexact H1
      iexact H2
    · -- a point in between
      iapply (sound_kernel0_mid (F := F) c Set.univ (grid0.coords t) (by rw [coords0_val]; omega) _ _ _ _ _ _
        (win0_0.fill (grid0.coords t) d0 (blk0 V c 0 t)) (win0_1.fill (grid0.coords t) d1 (blk0 V c 1 t)) (acc0 V c (t.val - 1)) _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexists d0; iexact H0
      isplitl [H1]; · iexists d1; iexact H1
      rw [show ain0 V c t = win0_1.fill (grid0.coords t) d1 (blk0 V c 1 t) from fill0_1_full t h48 _ _ _,
        show xin0 V c t = win0_0.fill (grid0.coords t) d0 (blk0 V c 0 t) from fill0_0_full t h48 _ _ _]
      iexact H2

/-- The library's body obligation for the first region, at every point. -/
theorem body_obligation0 (c : Dev nD) : BodyObligationLoose (dat0 V c) (defs₀ (F := F)) Variants.none () Set.univ := fun t => by
  rw [bigSep_W0, bigSep_W0]
  have hl : idle0 2 (grid0.coords t) = false := live0 2 _
  simp only [hl]
  exact sound_body0 V c t

end Cert.KernelIdeal.Hand

end
-- ==== Proof.Data1.lean ====
import proofs.«118275_g39109972197717_cont_8to1_b_158_6_alg».proof.Proof.Data0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second region: each stretch of 2048 result columns from the whole projection -/

/-- Window `w`'s block at point `t`: its part inside the array, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection: the one block of its array, the same at every point. -/
def xa1 (c : Dev nD) (t : Fin cfg1.N) : S1024x64.Idx → Elt F .f32 :=
  win1_0.fill (grid1.coords t) (fun _ => zero32) (blk1 V c 0 t)
/-- The stretch of `x` at point `t`, zero past the array's last column. -/
def xin1 (c : Dev nD) (t : Fin cfg1.N) : S1024x2048.Idx → Elt F .f32 :=
  win1_1.fill (grid1.coords t) (fun _ => zero32) (blk1 V c 1 t)
/-- The stretch of `A` at point `t`, zero past the array's last row. -/
def ain1 (c : Dev nD) (t : Fin cfg1.N) : S2048x64.Idx → Elt F .f32 :=
  win1_2.fill (grid1.coords t) (fun _ => zero32) (blk1 V c 2 t)
/-- The result's stretch at point `t`: the body's arithmetic of the three. -/
def out1 (c : Dev nD) (t : Fin cfg1.N) : S1024x2048.Idx → Elt F .f32 :=
  k1_pay1 (ain1 V c t) (xa1 V c t) (xin1 V c t)

/-- The proof data of the second region on core `c`: the arrays as the region finds them; after the body the three
    input buffers hold their blocks and the output buffer the body's arithmetic of them. -/
def dat1 (c : Dev nD) : Dat τ (Elt F) Unit ℕ (UR sig nD τ) ℕ cfg1 c where
  A w := V c (Pipeline.arrRef spec1 w)
  after w t := match w with
    | ⟨0, _⟩ => xa1 V c t
    | ⟨1, _⟩ => xin1 V c t
    | ⟨2, _⟩ => ain1 V c t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = xa1 V c t := by dsimp only [dat1]
theorem after1_1 (c : Dev nD) (t : Fin cfg1.N) : (dat1 V c).after 1 t = xin1 V c t := by dsimp only [dat1]
theorem after1_2 (c : Dev nD) (t : Fin cfg1.N) : (dat1 V c).after 2 t = ain1 V c t := by dsimp only [dat1]
theorem after1_3 (c : Dev nD) (t : Fin cfg1.N) : (dat1 V c).after 3 t = out1 V c t := by dsimp only [dat1]

/-- The projection's block is its whole array: a fetch fills the whole buffer. -/
theorem fill1_0_full (t : Fin cfg1.N) (d d' : S1024x64.Idx → Elt F .f32) (g) :
    win1_0.fill (grid1.coords t) d g = win1_0.fill (grid1.coords t) d' g := by
  funext j
  have hm : win1_0.moved (grid1.coords t) j = true := (win1_0.moved_iff _ j).mpr fun a => (j a).isLt
  unfold Window.fill; rw [dif_pos hm, dif_pos hm]

/-! ### What the body finds -/

theorem before1_0 (c : Dev nD) (t : Fin cfg1.N) (d) :
    (dat1 V c).before 0 t d = win1_0.fill (grid1.coords t) d (blk1 V c 0 t) := by
  rw [(dat1 V c).before_in_eq_fetched 0 rfl (fun _ => rfl) (fun _ _ _ => rfl)
    (fun t => by rw [after1_0]; exact win1_0.cut_fill _ _ _) t d]
  unfold Dat.fetched Dat.blockOf; dsimp only [dat1]; rfl
theorem before1_1 (c : Dev nD) (t : Fin cfg1.N) (d) :
    (dat1 V c).before 1 t d = win1_1.fill (grid1.coords t) d (blk1 V c 1 t) := by
  rw [(dat1 V c).before_fetched 1 t (fetch1_1 t)]; unfold Dat.fetched Dat.blockOf; dsimp only [dat1]; rfl
theorem before1_2 (c : Dev nD) (t : Fin cfg1.N) (d) :
    (dat1 V c).before 2 t d = win1_2.fill (grid1.coords t) d (blk1 V c 2 t) := by
  rw [(dat1 V c).before_fetched 2 t (fetch1_2 t)]; unfold Dat.fetched Dat.blockOf; dsimp only [dat1]; rfl
theorem before1_3 (c : Dev nD) (t : Fin cfg1.N) (d) : (dat1 V c).before 3 t d = d := by
  refine (dat1 V c).before_out_reset 3 rfl t ?_ d
  by_cases h0 : t.val = 0
  · exact .inl h0
  · exact .inr ⟨h0, flush1_3 _⟩

/-! ### The body obligation, in two forms -/

/-- With every window's contents forgotten: the body runs from any contents to some contents. -/
theorem sound_body1_forget (c : Dev nD) (t : Fin cfg1.N) :
    iprop((dat1 V c).Φ t.castSucc ∗ (dat1 V c).owesAt () t.castSucc
      ∗ (∃ X, owns (c : Thread nD τ) (st1_0 t) fullShare X) ∗ (∃ X, owns (c : Thread nD τ) (st1_1 t) fullShare X)
      ∗ (∃ X, owns (c : Thread nD τ) (st1_2 t) fullShare X) ∗ (∃ X, owns (c : Thread nD τ) (st1_3 t) fullShare X))
    ⊢ wp frame (wpE (defs₀ (F := F)) Variants.none c none) Set.univ (bodyAt1 t) (fun _ =>
        iprop((dat1 V c).Φ t.succ ∗ (dat1 V c).owesAt () t.succ
          ∗ (∃ X, owns (c : Thread nD τ) (st1_0 t) fullShare X) ∗ (∃ X, owns (c : Thread nD τ) (st1_1 t) fullShare X)
          ∗ (∃ X, owns (c : Thread nD τ) (st1_2 t) fullShare X) ∗ (∃ X, owns (c : Thread nD τ) (st1_3 t) fullShare X))) := by
  rw [show (dat1 V c).Φ t.succ = (dat1 V c).Φ t.castSucc from rfl,
    show (dat1 V c).owesAt () t.succ = (dat1 V c).owesAt () t.castSucc from rfl]
  iintro ⟨HΦ, Ho, ⟨%X1, H1⟩, ⟨%X2, H2⟩, ⟨%X3, H3⟩, ⟨%X4, H4⟩⟩
  iapply (sound_kernel1 (F := F) c Set.univ (grid1.coords t) _ _ _ _ _ _ _ _ X1 X2 X3 X4 _)
  isplitl [H1 H2 H3 H4]
  · isplitl [H1]; · iexact H1
    isplitl [H2]; · iexact H2
    isplitl [H3]; · iexact H3
    iexact H4
  iintro ⟨H1, H2, H3, H4⟩
  isplitl [HΦ]; · iexact HΦ
  isplitl [Ho]; · iexact Ho
  isplitl [H1]; · iexists _; iexact H1
  isplitl [H2]; · iexists _; iexact H2
  isplitl [H3]; · iexists _; iexact H3
  iexists _; iexact H4

theorem body_obligation1_forget (c : Dev nD) :
    BodyObligationLoose (dat1 V c) (defs₀ (F := F)) Variants.none () Set.univ (fun _ => true) := fun t => by
  rw [bigSep_W1]
  exact sound_body1_forget V c t

/-- The columns of a result stretch that lie inside the array do not depend on what the input buffers hold past
    the arrays' end. -/
def Local1 : Prop :=
  ∀ (c : Dev nD) (t : Fin cfg1.N) (d1 : S1024x2048.Idx → Elt F .f32) (d2 : S2048x64.Idx → Elt F .f32),
    win1_3.cut (grid1.coords t)
        (k1_pay1 (win1_2.fill (grid1.coords t) d2 (blk1 V c 2 t)) (xa1 V c t) (win1_1.fill (grid1.coords t) d1 (blk1 V c 1 t)))
      = win1_3.cut (grid1.coords t) (out1 V c t)

/-- With every window's contents named, where the result's columns inside the array depend on the inputs' parts
    inside their arrays only. -/
theorem sound_body1_exact (hloc : Local1 V) (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ (∃ d, owns (c : Thread nD τ) (st1_1 t) fullShare (win1_1.fill (grid1.coords t) d (win1_1.cut (grid1.coords t) ((dat1 V c).after 1 t))))
          ∗ (∃ d, owns (c : Thread nD τ) (st1_2 t) fullShare (win1_2.fill (grid1.coords t) d (win1_2.cut (grid1.coords t) ((dat1 V c).after 2 t))))
          ∗ (∃ d, owns (c : Thread nD τ) (st1_3 t) fullShare (win1_3.fill (grid1.coords t) d (win1_3.cut (grid1.coords t) ((dat1 V c).after 3 t)))))) := by
  rw [show (dat1 V c).Φ t.succ = (dat1 V c).Φ t.castSucc from rfl,
    show (dat1 V c).owesAt () t.succ = (dat1 V c).owesAt () t.castSucc from rfl,
    after1_0, after1_1, after1_2, after1_3,
    show win1_1.cut (grid1.coords t) (xin1 V c t) = blk1 V c 1 t from win1_1.cut_fill _ _ _,
    show win1_2.cut (grid1.coords t) (ain1 V c t) = blk1 V c 2 t from win1_2.cut_fill _ _ _]
  iintro ⟨HΦ, Ho, ⟨%d0, H1⟩, ⟨%d1, H2⟩, ⟨%d2, H3⟩, ⟨%d3, H4⟩⟩
  rw [before1_0 V c t d0, before1_1 V c t d1, before1_2 V c t d2, before1_3 V c t d3,
    show win1_0.fill (grid1.coords t) d0 (blk1 V c 0 t) = xa1 V c t from fill1_0_full t _ _ _]
  iapply (sound_kernel1 (F := F) c Set.univ (grid1.coords t) _ _ _ _ _ _ _ _ (xa1 V c t)
    (win1_1.fill (grid1.coords t) d1 (blk1 V c 1 t)) (win1_2.fill (grid1.coords t) d2 (blk1 V c 2 t)) d3 _)
  isplitl [H1 H2 H3 H4]
  · isplitl [H1]; · iexact H1
    isplitl [H2]; · iexact H2
    isplitl [H3]; · iexact H3
    iexact H4
  iintro ⟨H1, H2, H3, H4⟩
  isplitl [HΦ]; · iexact HΦ
  isplitl [Ho]; · iexact Ho
  isplitl [H1]; · iexact H1
  isplitl [H2]; · iexists d1; iexact H2
  isplitl [H3]; · iexists d2; iexact H3
  iexists (k1_pay1 (win1_2.fill (grid1.coords t) d2 (blk1 V c 2 t)) (xa1 V c t) (win1_1.fill (grid1.coords t) d1 (blk1 V c 1 t)))
  rw [← hloc c t d1 d2, win1_3.fill_cut]
  iexact H4

theorem body_obligation1_exact (hloc : Local1 V) (c : Dev nD) :
    BodyObligationLoose (dat1 V c) (defs₀ (F := F)) Variants.none () Set.univ := fun t => by
  rw [bigSep_W1, bigSep_W1]
  exact sound_body1_exact V hloc c t

end Cert.KernelIdeal.Hand

end
-- ==== Proof.Run.lean ====
import proofs.«118275_g39109972197717_cont_8to1_b_158_6_alg».proof.Proof.Data1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the two regions one after the other

The buffers' contents at the three boundaries: as launched; after the first region, its arrays at what its write-backs
leave; the second region's arrays are read off the final memory through what its proof data allow them to hold. -/

/-- Core `c`'s buffers at launch: what the first region is entered from. -/
abbrev U0 : Dev nD → Valuation τ sig (Elt F) := fun c b => m (c, b)
abbrev E0 : (c : Dev nD) → (b : Ref sig .tc) → Buf (Elt F) ((c : Thread nD τ).loc b) := fun c b => U0 m c b
/-- After the first region: its arrays at what the pipeline leaves, every other buffer as launched. -/
def U1 (c : Dev nD) : Valuation τ sig (Elt F) :=
  Pipeline.withArrays spec0 c (U0 m c) fun w => (dat0 (E0 m) c).arrAt w cfg0.N
theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
/-- The same read at the TensorCore's references: what the second region is entered from. -/
abbrev E1 : (c : Dev nD) → (b : Ref sig .tc) → Buf (Elt F) ((c : Thread nD τ).loc b) := fun c b => U1 m c b
theorem hF0 (c : Dev nD) (w : Fin cfg0.W) : (dat0 (E0 m) c).arrAt w cfg0.N = E1 m c (Pipeline.arrRef spec0 w) :=
  (U1_arr m c w).symm
theorem hrest0 (c : Dev nD) : ∀ b, b ∉ Finset.univ.image (Pipeline.arrRef spec0) → E1 m c b = E0 m c b :=
  fun b hb => U1_of_ne m c b fun w e => hb (Finset.mem_image.mpr ⟨w, Finset.mem_univ _, e⟩)

/-- The first region writes neither argument: the second finds them as launched. -/
theorem E1_main_arg0 (c : Dev nD) : E1 m c main_arg0 = m ((c : Thread nD τ).loc main_arg0) :=
  (U1_arr m c 0).trans (((dat0 (E0 m) c).arrAt_in 0 rfl _).trans (A_eq0 (E0 m) c 0))
theorem E1_main_arg1 (c : Dev nD) : E1 m c main_arg1 = m ((c : Thread nD τ).loc main_arg1) :=
  (U1_arr m c 1).trans (((dat0 (E0 m) c).arrAt_in 1 rfl _).trans (A_eq0 (E0 m) c 1))
/-- and the projection at what the first region's write-back left. -/
theorem E1_main_v0 (c : Dev nD) : E1 m c main_v0 = (dat0 (E0 m) c).arrAt 2 cfg0.N := U1_arr m c 2

/-! ## The proof data family and the thread state -/

/-- No pipeline has a prefetched table. -/
abbrev hadm : (p : Fin 2) → (pcfgs (F := F) p).Adm := fun p => (cfgs p).toPCfg_adm

variable (fgt1 : Fin 4 → Bool)

/-- Both pipelines' proof data, read as relations between what the body finds and what it leaves: the first region's
    exactly, the second's forgetting the windows `fgt1` marks. -/
def rdats : (p : Fin 2) → (c : Dev nD) → Pipeline.RDat τ (Elt F) Unit ℕ (UR sig nD τ) ℕ (Pipeline.pin (pcfgs (F := F)) hadm p) c
  | ⟨0, _⟩ => fun c => (dat0 (E0 m) c).toR
  | ⟨1, _⟩ => fun c => (dat1 (E1 m) c).toRForget fgt1
/-- The same data as named contents, for the lemmas stated of those. -/
def pdats : (p : Fin 2) → (c : Dev nD) → Dat τ (Elt F) Unit ℕ (UR sig nD τ) ℕ (Pipeline.pin (pcfgs (F := F)) hadm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers: the core's generator register at some state, and its `owes`, at nothing. -/
abbrev R (c : Dev nD) : sProp 𝕄 := iprop((∃ r, prngReg c r) ∗ ∃ W, owes (c : Thread nD τ) (0 : CellTallies nD τ sig Unit) W)

/-- The last thread state: the second region's arrays at some contents they may hold after its write-backs, and the
    generator register. -/
abbrev Tₙ (c : Dev nD) : sProp 𝕄 := iprop((rdats m fgt1 1 c).arraysAt cfg1.N ∗ ∃ r, prngReg c r)

/-! ## The regions as segments -/

set_option backward.isDefEq.respectTransparency.types false in
/-- The first region: entered from every unscoped buffer as launched, left with its arrays at what the pipeline leaves. -/
def reg0 : Pipeline.RDat.RegionSeg (pcfgs (F := F)) hadm (rdats m fgt1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := Pipeline.RDat.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) hadm (rdats m fgt1) launch0.win launch0.arr_whole c
      ((dat0 (E0 m) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    have hjoin' : iprop((dat0 (E0 m) c).arrays ((dat0 (E0 m) c).arrAt · cfg0.N)
          ∗ Pipeline.unscopedRest (Ix := Unit) (Name := ℕ) (U := UR sig nD τ) (Lvl := ℕ) spec0 c (E0 m c))
        ⊢ (StableHlo.held (c : Thread nD τ) (Pipeline.ucRefs τ sig) (U1 m c) : sProp 𝕄) := hjoin
    refine (sep_mono (Entails.of_eq ((dat0 (E0 m) c).toR_arraysAt_eq cfg0.N)) .rfl).trans ?_
    iintro ⟨Ha, HO, HY, Hrest⟩
    imodintro
    isplitl [Ha Hrest]
    · iapply hjoin'; isplitl [Ha]; · iexact Ha
      iexact Hrest
    isplitl [HY]; · iexact HY
    unfold Pipeline.RDat.owesAt Pipeline.owesWithin
    icases HO with ⟨%W, -, HO⟩; iexists W; iexact HO

variable (hb1 : ∀ c, BodyObligationLoose (dat1 (E1 m) c) (defs₀ (F := F)) Variants.none () Set.univ fgt1)

set_option backward.isDefEq.respectTransparency.types false in
/-- The second region: entered from what the first left, left with its arrays at some contents they may hold after
    its write-backs (read off the final memory at the end). -/
def reg1 : Pipeline.RDat.RegionSeg (pcfgs (F := F)) hadm (rdats m fgt1) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (U1 m c) ∗ R c)
  post c := iprop(Tₙ m fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) hadm (rdats m fgt1) launch1.win launch1.arr_whole c
      ((dat1 (E1 m) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, -⟩
    imodintro
    isplitl [Ha HY]
    · isplitl [Ha]; · iexact Ha
      iexact HY
    unfold Pipeline.RDat.owesAt Pipeline.owesWithin
    icases HO with ⟨%W, -, HO⟩; iexists W; iexact HO

/-! ## @main as segments, and the launch -/

abbrev segs : List (Pipeline.RDat.Seg (pcfgs (F := F)) hadm (rdats m fgt1) () defs₀ 𝒱₀ L lv) :=
  [ .region (reg0 m fgt1), .region (reg1 m fgt1 hb1) ]

theorem main_run (hb1 : ∀ c, BodyObligationLoose (dat1 (E1 m) c) (defs₀ (F := F)) Variants.none () Set.univ fgt1) (c : Dev nD) :
    main (F := F) c = Pipeline.RDat.Seg.run (segs m fgt1 hb1) := by
  simp only [Pipeline.RDat.Seg.run]
  rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main terminates,
    nothing faulting; the result array ends at contents the second region's proof data allow after its write-backs, and
    the two argument arrays as launched. -/
theorem run (hb1 : ∀ c, BodyObligationLoose (dat1 (E1 m) c) (defs₀ (F := F)) Variants.none () Set.univ fgt1) :
    θ_run defs (onTc (τ := τ) (main (F := F))) ⟨m, fun _ => 0, ρ⟩ (fun r => ∀ c : Dev nD,
      ((dat1 (E1 m) c).toRForget fgt1).ArrAt 3 cfg1.N (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) hadm (rdats m fgt1) () cellOf_inj emb₁ defs₀ 𝒱₀ L lv m ρ main (segs m fgt1 hb1)
    (fun c Q => by rw [main_run m fgt1 hb1 c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m fgt1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ w : Fin cfg1.W, (rdats m fgt1 1 c).ArrAt w cfg1.N (s.mem ((cfg1.win w).arr.view.loc (c : Thread nD τ))))
    (hfin := fun c s' => by
      iintro ⟨⟨Ha, -⟩, HSI⟩
      imodintro
      iapply (Pipeline.RDat.arrays_read (p := 1) (pcfgs (F := F)) hadm (rdats m fgt1) launch1.arr_whole c cfg1.N s')
      isplitl [Ha] <;> iassumption)
    (hQ := fun s h c => by
      have h3 := h c 3
      have h1 := h c 1
      have h2 := h c 2
      rw [show (rdats m fgt1 1 c) = (dat1 (E1 m) c).toRForget fgt1 from rfl] at h1 h2 h3
      rw [Pipeline.RDat.ArrAt_in _ 1 rfl] at h1
      rw [Pipeline.RDat.ArrAt_in _ 2 rfl] at h2
      exact ⟨h3, h1.trans ((A_eq1 (E1 m) c 1).trans (E1_main_arg0 m c)), h2.trans ((A_eq1 (E1 m) c 2).trans (E1_main_arg1 m c))⟩)

/-- info: 'Cert.KernelIdeal.Hand.run' depends on axioms: [propext, Classical.choice, Quot.sound] -/
#guard_msgs in #print axioms run

end Cert.KernelIdeal.Hand

end
-- ==== Proof.KBody1.lean ====
/-
  The body of the second region at one grid point, over abstract buffer contents: the four staging buffers hold
  the projection `xa`, a block of `x`, a block of `A` and anything; the body loads the first three whole, stores
  into the fourth the clipped value `min 6 (max 0 (xa · Anᵀ − x))` of the block (the payload `k1_pay1` of the
  three loads) through the whole-buffer rectangle, and leaves the first three as they were.
-/
import proofs.«118275_g39109972197717_cont_8to1_b_158_6_alg».proof.Proof.Gen.Kernel.Skeleton
import proofs.«118275_g39109972197717_cont_8to1_b_158_6_alg».proof.Proof.Gen.Kernel.Launch
import Idealize.ShloMosaic.Lib.Pipeline.Kit
import Idealize.ShloMosaic.Lib.Pipeline.Frame
import Idealize.ShloMosaic.Lib.Pipeline.FrameBody
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two-coordinate zero offset, however it is spelt. -/
theorem zero2 : (![0, 0] : Fin 2 → ℕ) = fun _ => 0 := by
  funext a; fin_cases a <;> rfl

/-- A load through the whole-shape rectangle at zero offsets reads the contents. -/
theorem readAt_unit_zero {sig : RefSig} {κ : Kind} {sp : Space} {S : Shape} {e : EltTy} {Val : EltTy → Type}
    (v : View sig κ sp S e) {off : Fin S.rank → ℕ} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- One store through the whole-shape rectangle at zero offsets leaves its payload. -/
theorem read_writes_unit_zero {sig : RefSig} {κ : Kind} {sp : Space} {S : Shape} {e : EltTy} {Val : EltTy → Type}
    [∀ e, Nonempty (Val e)]
    (v : View sig κ sp S e) {off : Fin S.rank → ℕ} (h : off = fun _ => 0)
    (inb : ∀ a, off a + S.size a ≤ S.size a) (f : v.ty.Contents Val) (w : S.Idx → Val e) :
    v.read Val (v.writes Val f [⟨Rect.unit off S.size inb, w⟩]) = w :=
  (View.read_writes_eq_canon v f _ (fun y => ⟨_, List.mem_singleton_self _, View.mem_set_unit_zero h inb y⟩)).trans
    (View.canon_unit_zero h inb w)

set_option maxHeartbeats 1000000 in
/-- The body of region 1 on whole staging memrefs at contents `X1` (the projection), `X2` (the block of `x`),
    `X3` (the block of `A`) and `X4` (anything) runs to the continuation holding the first three unchanged and the
    fourth at `k1_pay1 X3 X1 X2`: each whole-rectangle load reads the contents, and the one whole-rectangle store
    leaves its payload. -/
theorem sound_kernel1 (c : Dev nD) (E : Set ℕ) (i : grid1.Coords)
    (M1 : Memref sig .tc .vmem S1024x64 .f32) (h1 : M1.IsWhole)
    (M2 : Memref sig .tc .vmem S1024x2048 .f32) (h2 : M2.IsWhole)
    (M3 : Memref sig .tc .vmem S2048x64 .f32) (h3 : M3.IsWhole)
    (M4 : Memref sig .tc .vmem S1024x2048 .f32) (h4 : M4.IsWhole)
    (X1 : S1024x64.Idx → Elt F .f32) (X2 : S1024x2048.Idx → Elt F .f32)
    (X3 : S2048x64.Idx → Elt F .f32) (X4 : S1024x2048.Idx → Elt F .f32) (K : PUnit → sProp 𝕄) :
    iprop((owns (c : Thread nD τ) M1 fullShare X1 ∗ owns (c : Thread nD τ) M2 fullShare X2
          ∗ owns (c : Thread nD τ) M3 fullShare X3 ∗ owns (c : Thread nD τ) M4 fullShare X4)
        ∗ (iprop(owns (c : Thread nD τ) M1 fullShare X1 ∗ owns (c : Thread nD τ) M2 fullShare X2
          ∗ owns (c : Thread nD τ) M3 fullShare X3 ∗ owns (c : Thread nD τ) M4 fullShare (k1_pay1 X3 X1 X2)) -∗ K ⟨⟩))
      ⊢ wp frame (wpE (defs₀ (F := F)) Variants.none c none) E (cc1__out_kernel i M1 h1 M2 h2 M3 h3 M4 h4) K := by
  simp only [cc1__out_kernel_eq_skeleton]; unfold cc1__out_kernel_skel
  unfold owns
  iintro ⟨⟨⟨%f1, %hf1, H1⟩, ⟨%f2, %hf2, H2⟩, ⟨%f3, %hf3, H3⟩, ⟨%f4, %hf4, H4⟩⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (read_writes_unit_zero M4.view zero2 _ f4 _).trans ?_
  rw [readAt_unit_zero M3.view zero2, readAt_unit_zero M1.view zero2, readAt_unit_zero M2.view zero2]

end Cert.Kernel.Hand
end
-- ==== Proof.KBody0.lean ====
/-
  The body of the first region at one grid point, over abstract buffer contents. The three staging buffers hold a
  block of `x`, a block of `A` and the accumulator `xa`. The body's three conditionals test the grid coordinate
  `t` (below 49): "t = 48", "t = 0", "0 < t". So there are three cases:
    * t = 0: the accumulator is overwritten by the product of the two blocks;
    * 0 < t < 48: the product is added to the accumulator;
    * t = 48: the tails of the two blocks that lie past the arrays' end are zeroed first, and the product of the
      zero-tailed blocks is added to the accumulator.
-/
import proofs.«118275_g39109972197717_cont_8to1_b_158_6_alg».proof.Proof.Gen.Kernel.Skeleton
import proofs.«118275_g39109972197717_cont_8to1_b_158_6_alg».proof.Proof.Gen.Kernel.Launch
import Idealize.ShloMosaic.Lib.Pipeline.Kit
import Idealize.ShloMosaic.Lib.Pipeline.Frame
import Idealize.ShloMosaic.Lib.Pipeline.FrameBody
import Idealize.ShloMosaic.Lib.Tactic
import Idealize.ShloMosaic.Lib.Pipeline.Value
import Idealize.ShloMosaic.Lib.WritesUnit
import proofs.«118275_g39109972197717_cont_8to1_b_158_6_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The three conditions of the accumulating body, in closed form -/

/-- The word the first conditional tests: "the grid coordinate is 48". -/
def cond1 (i : grid0.Coords) : BitVec 1 :=
  Scalar.cmpi .ne (Scalar.extui (Scalar.cmpi .eq (BitVec.ofNat 32 (i 0).val) 48#32)) 0#32

theorem cond1_fin : ∀ n : Fin 49,
    (Scalar.cmpi .ne (Scalar.extui (Scalar.cmpi .eq (BitVec.ofNat 32 n.val) 48#32)) 0#32 = 1#1) ↔ n.val = 48 := by
  decide

theorem cond2_fin : ∀ n : Fin 49,
    (Scalar.cmpi .ne (Scalar.extui (Scalar.cmpi .eq (BitVec.ofNat 32 n.val) 0#32)) 0#32 = 1#1) ↔ n.val = 0 := by
  decide

theorem cond3_fin : ∀ n : Fin 49,
    (Scalar.cmpi .ne (Scalar.extui (Scalar.cmpi .sgt (BitVec.ofNat 32 n.val) 0#32)) 0#32 = 1#1) ↔ 0 < n.val := by
  decide

theorem cond1_iff (i : grid0.Coords) : cond1 i = 1#1 ↔ (i 0).val = 48 := cond1_fin (i 0)
theorem cond2_iff (i : grid0.Coords) : k0_cond2 i = 1#1 ↔ (i 0).val = 0 := cond2_fin (i 0)
theorem cond3_iff (i : grid0.Coords) : k0_cond3 i = 1#1 ↔ 0 < (i 0).val := cond3_fin (i 0)

/-! ## The last point's zeroed tails -/

/-- contents with the columns from 1696 on replaced by zero -/
def ztail0 (X : S1024x2048.Idx → Elt F .f32) : S1024x2048.Idx → Elt F .f32 :=
  fun j => if (j 1).val < 1696 then X j else Scalar.ofBits .f32 0x00000000#32

/-- contents with the rows from 1696 on replaced by zero -/
def ztail1 (X : S2048x64.Idx → Elt F .f32) : S2048x64.Idx → Elt F .f32 :=
  fun j => if (j 0).val < 1696 then X j else Scalar.ofBits .f32 0x00000000#32

/-- The payload of the store into the block of `x` is zero at every index. -/
theorem k0_pay1_apply (x : S1024x352.Idx) : k0_pay1 (F := F) x = Scalar.ofBits .f32 0x00000000#32 := by
  unfold k0_pay1
  exact congrFun (shapeCast_self _ _) x

/-- The payload of the store into the block of `A` is zero at every index. -/
theorem k0_pay2_apply (x : S352x64.Idx) : k0_pay2 (F := F) x = Scalar.ofBits .f32 0x00000000#32 := by
  unfold k0_pay2
  exact congrFun (shapeCast_self _ _) x

/-- A buffer of the shape of a block of `x`, after the zero store through columns `1696 ..< 2048` of every row,
    reads as its earlier contents with those columns zero: an index under the store's rectangle reads the store's
    payload, any other index what the buffer held. -/
theorem read_writes_ztail0 {sig : RefSig} {κ : Kind} {sp : Space} (v : View sig κ sp S1024x2048 .f32)
    (f : v.ty.Contents (Elt F)) :
    v.read (Elt F) (v.writes (Elt F) f
        [⟨Rect.unit (s := S1024x2048) ![0, 1696] S1024x352.size inb_S1024x2048_S1024x352_0_1696, k0_pay1 (F := F)⟩])
      = ztail0 (v.read (Elt F) f) := by
  funext y
  rw [View.read_writes_cons_unit v f inb_S1024x2048_S1024x352_0_1696 (k0_pay1 (F := F)) [] y rfl]
  unfold ztail0
  split
  · rename_i h
    have h1 : 1696 ≤ (y 1).val := (h 1).1
    rw [if_neg (by omega)]
    exact k0_pay1_apply _
  · rename_i h
    by_cases hy : (y 1).val < 1696
    · rw [if_pos hy]; rfl
    · exfalso
      apply h
      have h0 : (y 0).val < 1024 := (y 0).isLt
      have h1 : (y 1).val < 2048 := (y 1).isLt
      refine Fin.forall_fin_two.mpr ⟨⟨Nat.zero_le _, ?_⟩, ⟨?_, ?_⟩⟩
      · show (y 0).val < 0 + 1024; omega
      · show 1696 ≤ (y 1).val; omega
      · show (y 1).val < 1696 + 352; omega

/-- A buffer of the shape of a block of `A`, after the zero store through rows `1696 ..< 2048`, reads as its
    earlier contents with those rows zero. -/
theorem read_writes_ztail1 {sig : RefSig} {κ : Kind} {sp : Space} (v : View sig κ sp S2048x64 .f32)
    (f : v.ty.Contents (Elt F)) :
    v.read (Elt F) (v.writes (Elt F) f
        [⟨Rect.unit (s := S2048x64) ![1696, 0] S352x64.size inb_S2048x64_S352x64_1696_0, k0_pay2 (F := F)⟩])
      = ztail1 (v.read (Elt F) f) := by
  funext y
  rw [View.read_writes_cons_unit v f inb_S2048x64_S352x64_1696_0 (k0_pay2 (F := F)) [] y rfl]
  unfold ztail1
  split
  · rename_i h
    have h1 : 1696 ≤ (y 0).val := (h 0).1
    rw [if_neg (by omega)]
    exact k0_pay2_apply _
  · rename_i h
    by_cases hy : (y 0).val < 1696
    · rw [if_pos hy]; rfl
    · exfalso
      apply h
      have h0 : (y 0).val < 2048 := (y 0).isLt
      have h1 : (y 1).val < 64 := (y 1).isLt
      refine Fin.forall_fin_two.mpr ⟨⟨?_, ?_⟩, ⟨Nat.zero_le _, ?_⟩⟩
      · show 1696 ≤ (y 0).val; omega
      · show (y 0).val < 1696 + 352; omega
      · show (y 1).val < 0 + 64; omega

/-! ## The body's three cases -/

set_option maxHeartbeats 1000000 in
/-- At the first point the body loads its blocks of `x` and `A` whole and stores their product `k0_pay3` over
    the accumulator, whatever it held. -/
theorem sound_kernel0_first (c : Dev nD) (E : Set ℕ) (i : grid0.Coords) (hi : (i 0).val = 0)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (X0) ∗ owns (c : Thread nD τ) M1 fullShare (X1)
          ∗ owns (c : Thread nD τ) M2 fullShare (k0_pay3 X1 X0)) -∗ K ⟨⟩))
      ⊢ wp frame (wpE (defs₀ (F := F)) Variants.none c none) E (cc0__xa_kernel i M0 h0 M1 h1 M2 h2) K := by
  have hc1 : ¬ (cond1 i = 1#1) := fun h => by have := (cond1_iff i).mp h; omega
  have hc2 : k0_cond2 i = 1#1 := (cond2_iff i).mpr hi
  have hc3 : ¬ (k0_cond3 i = 1#1) := fun h => by have := (cond3_iff i).mp h; omega
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero M2.view zero2 _ f2 _).trans ?_
  rw [readAt_unit_zero M1.view zero2, readAt_unit_zero M0.view zero2]

set_option maxHeartbeats 1000000 in
/-- At a point strictly between the first and the last the body loads the two blocks and the accumulator whole
    and stores the accumulator plus the blocks' product, `k0_pay4`. -/
theorem sound_kernel0_mid (c : Dev nD) (E : Set ℕ) (i : grid0.Coords) (hi : 0 < (i 0).val ∧ (i 0).val < 48)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (X0) ∗ owns (c : Thread nD τ) M1 fullShare (X1)
          ∗ owns (c : Thread nD τ) M2 fullShare (k0_pay4 X1 X0 X2)) -∗ K ⟨⟩))
      ⊢ wp frame (wpE (defs₀ (F := F)) Variants.none c none) E (cc0__xa_kernel i M0 h0 M1 h1 M2 h2) K := by
  have hc1 : ¬ (cond1 i = 1#1) := fun h => by have := (cond1_iff i).mp h; omega
  have hc2 : ¬ (k0_cond2 i = 1#1) := fun h => by have := (cond2_iff i).mp h; omega
  have hc3 : k0_cond3 i = 1#1 := (cond3_iff i).mpr hi.1
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1 hf2
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit_zero M2.view zero2 _ f2 _).trans ?_
  rw [readAt_unit_zero M1.view zero2, readAt_unit_zero M0.view zero2, readAt_unit_zero M2.view zero2]

set_option maxHeartbeats 1000000 in
/-- At the last point the body first zeroes columns `1696 ..` of its block of `x` and rows `1696 ..` of its block
    of `A` (the part past the arrays' end), then adds the product of the two zero-tailed blocks to the accumulator:
    the whole-buffer loads after the two partial stores read the zero-tailed contents. -/
theorem sound_kernel0_last (c : Dev nD) (E : Set ℕ) (i : grid0.Coords) (hi : (i 0).val = 48)
    (M0 : Memref sig .tc .vmem S1024x2048 .f32) (h0 : M0.IsWhole)
    (M1 : Memref sig .tc .vmem S2048x64 .f32) (h1 : M1.IsWhole)
    (M2 : Memref sig .tc .vmem S1024x64 .f32) (h2 : M2.IsWhole)
    (X0 : S1024x2048.Idx → Elt F .f32) (X1 : S2048x64.Idx → Elt F .f32) (X2 : S1024x64.Idx → Elt F .f32)
    (K : PUnit → sProp 𝕄) :
    iprop((owns (c : Thread nD τ) M0 fullShare X0 ∗ owns (c : Thread nD τ) M1 fullShare X1
          ∗ owns (c : Thread nD τ) M2 fullShare X2)
        ∗ (iprop(owns (c : Thread nD τ) M0 fullShare (ztail0 X0) ∗ owns (c : Thread nD τ) M1 fullShare (ztail1 X1)
          ∗ owns (c : Thread nD τ) M2 fullShare (k0_pay4 (ztail1 X1) (ztail0 X0) X2)) -∗ K ⟨⟩))
      ⊢ wp frame (wpE (defs₀ (F := F)) Variants.none c none) E (cc0__xa_kernel i M0 h0 M1 h1 M2 h2) K := by
  have hc1 : cond1 i = 1#1 := (cond1_iff i).mpr hi
  have hc2 : ¬ (k0_cond2 i = 1#1) := fun h => by have := (cond2_iff i).mp h; omega
  have hc3 : k0_cond3 i = 1#1 := (cond3_iff i).mpr (by omega)
  simp only [cc0__xa_kernel_eq_skeleton]; unfold cc0__xa_kernel_skel
  unfold owns
  iintro ⟨⟨⟨%f0, %hf0, H0⟩, ⟨%f1, %hf1, H1⟩, ⟨%f2, %hf2, H2⟩⟩, Hk⟩
  subst hf0 hf1 hf2
  sl_exec (disch := first | sl_exact hc1 | sl_exact hc2 | sl_exact hc3)
  sl_step
  iapply Hk
  isplitl [H0]
  · iexists _; isplitr
    swap; · iexact H0
    ipureintro
    sl_unfold_run_names
    exact read_writes_ztail0 M0.view f0
  isplitl [H1]
  · iexists _; isplitr
    swap; · iexact H1
    ipureintro
    sl_unfold_run_names
    exact read_writes_ztail1 M1.view f1
  iexists _; isplitr
  swap; · iexact H2
  ipureintro
  refine (read_writes_unit_zero M2.view zero2 _ f2 _).trans ?_
  sl_unfold_run_names
  rw [readAt_unit_zero M1.view zero2, readAt_unit_zero M0.view zero2, readAt_unit_zero M2.view zero2,
    read_writes_ztail0, read_writes_ztail1]

end Cert.Kernel.Hand
end
-- ==== Proof.KData0.lean ====
import proofs.«118275_g39109972197717_cont_8to1_b_158_6_alg».proof.Proof.Gen.Kernel.Skeleton
import proofs.«118275_g39109972197717_cont_8to1_b_158_6_alg».proof.Proof.Gen.Kernel.Launch
import proofs.«118275_g39109972197717_cont_8to1_b_158_6_alg».proof.Proof.Gen.Kernel.Points
import proofs.«118275_g39109972197717_cont_8to1_b_158_6_alg».proof.Proof.KBody0
import Idealize.ShloMosaic.Lib.Pipeline.FrameBody
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first region: the projection accumulated over 49 stretches of 2048 items -/

/-- The zero word. -/
abbrev zero32 : Elt F .f32 := Scalar.ofBits .f32 0x00000000#32

/-- Window `w`'s block at point `t`: its part inside the array, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The stretch of `x` the body multiplies at point `t`: columns `2048 t ‥ 2048 t + 2047`, zero past the array's last column. -/
def xin0 (c : Dev nD) (t : Fin cfg0.N) : S1024x2048.Idx → Elt F .f32 :=
  win0_0.fill (grid0.coords t) (fun _ => zero32) (blk0 V c 0 t)

/-- The stretch of `A` at point `t`: rows `2048 t ‥ 2048 t + 2047`, zero past the array's last row. -/
def ain0 (c : Dev nD) (t : Fin cfg0.N) : S2048x64.Idx → Elt F .f32 :=
  win0_1.fill (grid0.coords t) (fun _ => zero32) (blk0 V c 1 t)

/-- The accumulator after point `n`: the first stretch's product, then one more stretch's product added per point. -/
def acc0 (c : Dev nD) : ℕ → S1024x64.Idx → Elt F .f32
  | 0 => k0_pay3 (ain0 V c ⟨0, by decide⟩) (xin0 V c ⟨0, by decide⟩)
  | n + 1 => if h : n + 1 < cfg0.N then k0_pay4 (ain0 V c ⟨n + 1, h⟩) (xin0 V c ⟨n + 1, h⟩) (acc0 c n) else acc0 c n

theorem acc0_zero (c : Dev nD) (t : Fin cfg0.N) (ht : t.val = 0) : acc0 V c t.val = k0_pay3 (ain0 V c t) (xin0 V c t) := by
  obtain ⟨n, hn⟩ := t; cases ht; rfl

theorem acc0_succ (c : Dev nD) (t : Fin cfg0.N) (ht : t.val ≠ 0) :
    acc0 V c t.val = k0_pay4 (ain0 V c t) (xin0 V c t) (acc0 V c (t.val - 1)) := by
  obtain ⟨n, hn⟩ := t
  cases n with
  | zero => exact absurd rfl ht
  | succ n => show acc0 V c (n + 1) = _; rw [acc0, dif_pos hn]; rfl

/-- The proof data of the first region on core `c`: the arrays as the region finds them; after the body the two input
    buffers hold their stretches (zero past the arrays' end) and the output buffer the accumulator. -/
def dat0 (c : Dev nD) : Dat τ (Elt F) Unit ℕ (UR sig nD τ) ℕ cfg0 c where
  A w := V c (Pipeline.arrRef spec0 w)
  after w t := match w with
    | ⟨0, _⟩ => xin0 V c t
    | ⟨1, _⟩ => ain0 V c t
    | ⟨2, _⟩ => acc0 V c t.val
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = xin0 V c t := by dsimp only [dat0]
theorem after0_1 (c : Dev nD) (t : Fin cfg0.N) : (dat0 V c).after 1 t = ain0 V c t := by dsimp only [dat0]
theorem after0_2 (c : Dev nD) (t : Fin cfg0.N) : (dat0 V c).after 2 t = acc0 V c t.val := by dsimp only [dat0]

/-! ### How much of each block lies inside its array -/

/-- Of `x`'s block every row and, but at the last point, every column lies inside the array; at the last point the first 1696 columns. -/
theorem xsize0_0 : ∀ t : Fin cfg0.N, win0_0.xsize (grid0.coords t) 0 = 1024 ∧ win0_0.xsize (grid0.coords t) 1 = (if t.val = 48 then 1696 else 2048) :=
  (by decide +kernel : ∀ t : Fin grid0.N, win0_0.xsize (grid0.coords t) 0 = 1024 ∧ win0_0.xsize (grid0.coords t) 1 = (if t.val = 48 then 1696 else 2048))
/-- Of `A`'s block every column and, but at the last point, every row; at the last point the first 1696 rows. -/
theorem xsize0_1 : ∀ t : Fin cfg0.N, win0_1.xsize (grid0.coords t) 0 = (if t.val = 48 then 1696 else 2048) ∧ win0_1.xsize (grid0.coords t) 1 = 64 :=
  (by decide +kernel : ∀ t : Fin grid0.N, win0_1.xsize (grid0.coords t) 0 = (if t.val = 48 then 1696 else 2048) ∧ win0_1.xsize (grid0.coords t) 1 = 64)

theorem moved0_0 (t : Fin cfg0.N) (j : S1024x2048.Idx) :
    win0_0.moved (grid0.coords t) j = true ↔ (t.val = 48 → (j 1).val < 1696) := by
  rw [Window.moved_iff]
  have h0 : (j 0).val < 1024 := (j 0).isLt
  have h1 : (j 1).val < 2048 := (j 1).isLt
  obtain ⟨e0, e1⟩ := xsize0_0 t
  constructor
  · intro h ht; have := h 1; rw [e1, if_pos ht] at this; exact this
  · intro h a
    match a with
    | ⟨0, _⟩ => show (j 0).val < win0_0.xsize (grid0.coords t) 0; rw [e0]; exact h0
    | ⟨1, _⟩ =>
      show (j 1).val < win0_0.xsize (grid0.coords t) 1; rw [e1]
      by_cases ht : t.val = 48
      · rw [if_pos ht]; exact h ht
      · rw [if_neg ht]; exact h1

theorem moved0_1 (t : Fin cfg0.N) (j : S2048x64.Idx) :
    win0_1.moved (grid0.coords t) j = true ↔ (t.val = 48 → (j 0).val < 1696) := by
  rw [Window.moved_iff]
  have h0 : (j 0).val < 2048 := (j 0).isLt
  have h1 : (j 1).val < 64 := (j 1).isLt
  obtain ⟨e0, e1⟩ := xsize0_1 t
  constructor
  · intro h ht; have := h 0; rw [e0, if_pos ht] at this; exact this
  · intro h a
    match a with
    | ⟨0, _⟩ =>
      show (j 0).val < win0_1.xsize (grid0.coords t) 0; rw [e0]
      by_cases ht : t.val = 48
      · rw [if_pos ht]; exact h ht
      · rw [if_neg ht]; exact h0
    | ⟨1, _⟩ => show (j 1).val < win0_1.xsize (grid0.coords t) 1; rw [e1]; exact h1

/-- Before the last point a fetched block fills its whole buffer: nothing of what the buffer held is left. -/
theorem fill0_0_full (t : Fin cfg0.N) (ht : t.val ≠ 48) (d d' : S1024x2048.Idx → Elt F .f32) (g) :
    win0_0.fill (grid0.coords t) d g = win0_0.fill (grid0.coords t) d' g := by
  funext j
  have hm : win0_0.moved (grid0.coords t) j = true := (moved0_0 t j).mpr fun h => absurd h ht
  unfold Window.fill; rw [dif_pos hm, dif_pos hm]
theorem fill0_1_full (t : Fin cfg0.N) (ht : t.val ≠ 48) (d d' : S2048x64.Idx → Elt F .f32) (g) :
    win0_1.fill (grid0.coords t) d g = win0_1.fill (grid0.coords t) d' g := by
  funext j
  have hm : win0_1.moved (grid0.coords t) j = true := (moved0_1 t j).mpr fun h => absurd h ht
  unfold Window.fill; rw [dif_pos hm, dif_pos hm]

/-- At the last point, zeroing the columns from 1696 on of a fetched block leaves the block with zeros past the array's end,
    whatever the buffer held there. -/
theorem ztail0_fill (t : Fin cfg0.N) (ht : t.val = 48) (d : S1024x2048.Idx → Elt F .f32) (g) :
    ztail0 (win0_0.fill (grid0.coords t) d g) = win0_0.fill (grid0.coords t) (fun _ => zero32) g := by
  funext j
  unfold ztail0 Window.fill
  by_cases hm : win0_0.moved (grid0.coords t) j = true
  · rw [if_pos ((moved0_0 t j).mp hm ht), dif_pos hm, dif_pos hm]
  · rw [if_neg (fun h => hm ((moved0_0 t j).mpr fun _ => h)), dif_neg hm]
theorem ztail1_fill (t : Fin cfg0.N) (ht : t.val = 48) (d : S2048x64.Idx → Elt F .f32) (g) :
    ztail1 (win0_1.fill (grid0.coords t) d g) = win0_1.fill (grid0.coords t) (fun _ => zero32) g := by
  funext j
  unfold ztail1 Window.fill
  by_cases hm : win0_1.moved (grid0.coords t) j = true
  · rw [if_pos ((moved0_1 t j).mp hm ht), dif_pos hm, dif_pos hm]
  · rw [if_neg (fun h => hm ((moved0_1 t j).mpr fun _ => h)), dif_neg hm]

/-! ### What the body finds -/

/-- The output buffer is stored at every point: no point is idle for it. -/
theorem live0 : ∀ (w : Fin cfg0.W) (i : cfg0.grid.Coords), cfg0.idle w i = false :=
  (by decide +kernel : ∀ (w : Fin 3) (i : grid0.Coords), idle0 w i = false)

theorem before0_0 (c : Dev nD) (t : Fin cfg0.N) (d) :
    (dat0 V c).before 0 t d = win0_0.fill (grid0.coords t) d (blk0 V c 0 t) := by
  rw [(dat0 V c).before_fetched 0 t (fetch0_0 t)]; unfold Dat.fetched Dat.blockOf; dsimp only [dat0]; rfl
theorem before0_1 (c : Dev nD) (t : Fin cfg0.N) (d) :
    (dat0 V c).before 1 t d = win0_1.fill (grid0.coords t) d (blk0 V c 1 t) := by
  rw [(dat0 V c).before_fetched 1 t (fetch0_1 t)]; unfold Dat.fetched Dat.blockOf; dsimp only [dat0]; rfl
theorem before0_2_first (c : Dev nD) (t : Fin cfg0.N) (ht : t.val = 0) (d) : (dat0 V c).before 2 t d = d :=
  (dat0 V c).before_out_reset 2 rfl t (.inl ht) d
theorem before0_2_later (c : Dev nD) (t : Fin cfg0.N) (ht : t.val ≠ 0) (d) : (dat0 V c).before 2 t d = acc0 V c (t.val - 1) := by
  rw [(dat0 V c).before_out_kept 2 rfl t ht ?_ (live0 2) (fun _ _ => rfl) d, after0_2]
  have h := t.isLt
  have hN : cfg0.N = 49 := N_0
  exact Bool.eq_false_iff.mpr fun hf => by
    have := (flush0_2 ⟨t.val - 1, Nat.lt_of_le_of_lt (Nat.sub_le _ _) t.isLt⟩).mp hf
    simp only at this; omega

/-! ### The body obligation -/

theorem coords0_val : ∀ t : Fin cfg0.N, ((grid0.coords t) 0).val = t.val :=
  (by decide +kernel : ∀ t : Fin grid0.N, ((grid0.coords t) 0).val = t.val)

theorem cut_after0_0 (c : Dev nD) (t : Fin cfg0.N) : win0_0.cut (grid0.coords t) ((dat0 V c).after 0 t) = blk0 V c 0 t := by
  rw [after0_0]; exact win0_0.cut_fill _ _ _
theorem cut_after0_1 (c : Dev nD) (t : Fin cfg0.N) : win0_1.cut (grid0.coords t) ((dat0 V c).after 1 t) = blk0 V c 1 t := by
  rw [after0_1]; exact win0_1.cut_fill _ _ _

/-- The body at any point: its two input buffers hold their fetched stretches, whatever lies past the arrays' end; the
    output buffer anything at the first point and the accumulator so far at the later ones. By cases on the point:
    the first stores the product, the later ones add it, the last first zeroes what lies past the arrays' end. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
        iprop((dat0 V c).Φ t.succ ∗ (dat0 V c).owesAt () t.succ
          ∗ (∃ d, owns (c : Thread nD τ) (st0_0 t) fullShare (win0_0.fill (grid0.coords t) d (win0_0.cut (grid0.coords t) ((dat0 V c).after 0 t))))
          ∗ (∃ d, owns (c : Thread nD τ) (st0_1 t) fullShare (win0_1.fill (grid0.coords t) d (win0_1.cut (grid0.coords t) ((dat0 V c).after 1 t))))
          ∗ owns (c : Thread nD τ) (st0_2 t) fullShare ((dat0 V c).after 2 t))) := by
  rw [show (dat0 V c).Φ t.succ = (dat0 V c).Φ t.castSucc from rfl,
    show (dat0 V c).owesAt () t.succ = (dat0 V c).owesAt () t.castSucc from rfl,
    cut_after0_0, cut_after0_1, after0_2]
  iintro ⟨HΦ, Ho, ⟨%d0, H0⟩, ⟨%d1, H1⟩, ⟨%d2, H2⟩⟩
  rw [before0_0 V c t d0, before0_1 V c t d1]
  have hN : cfg0.N = 49 := N_0
  have hlt := t.isLt
  by_cases h0 : t.val = 0
  · -- the first point
    rw [before0_2_first V c t h0 d2, acc0_zero V c t h0]
    have h48 : t.val ≠ 48 := by omega
    iapply (sound_kernel0_first (F := F) c Set.univ (grid0.coords t) (by rw [coords0_val]; exact h0) _ _ _ _ _ _
      (win0_0.fill (grid0.coords t) d0 (blk0 V c 0 t)) (win0_1.fill (grid0.coords t) d1 (blk0 V c 1 t)) d2 _)
    isplitl [H0 H1 H2]
    · isplitl [H0]; · iexact H0
      isplitl [H1]; · iexact H1
      iexact H2
    iintro ⟨H0, H1, H2⟩
    isplitl [HΦ]; · iexact HΦ
    isplitl [Ho]; · iexact Ho
    isplitl [H0]; · iexists d0; iexact H0
    isplitl [H1]; · iexists d1; iexact H1
    rw [show ain0 V c t = win0_1.fill (grid0.coords t) d1 (blk0 V c 1 t) from fill0_1_full t h48 _ _ _,
      show xin0 V c t = win0_0.fill (grid0.coords t) d0 (blk0 V c 0 t) from fill0_0_full t h48 _ _ _]
    iexact H2
  · rw [before0_2_later V c t h0 d2, acc0_succ V c t h0]
    by_cases h48 : t.val = 48
    · -- the last point
      iapply (sound_kernel0_last (F := F) c Set.univ (grid0.coords t) (by rw [coords0_val]; exact h48) _ _ _ _ _ _
        (win0_0.fill (grid0.coords t) d0 (blk0 V c 0 t)) (win0_1.fill (grid0.coords t) d1 (blk0 V c 1 t)) (acc0 V c (t.val - 1)) _)
      isplitl [H0 H1 H2]
      · isplitl [H0]; · iexact H0
        isplitl [H1]; · iexact H1
        iexact H2
      rw [ztail0_fill t h48, ztail1_fill t h48]
      iintro ⟨H0, H1, H2⟩
      isplitl [HΦ]; · iexact HΦ
      isplitl [Ho]; · iexact Ho
      isplitl [H0]; · iexists (fun _ => zero32); iexact H0
      isplitl [H1]; · iexists (fun _ => zero32); iexact H1
      iexact H2
    · -- a point in between
      iapply (sound_kernel0_mid (F := F) c Set.univ (grid0.coords t) (by rw [coords0_val]; omega) _ _ _ _ _ _
        (win0_0.fill (grid0.coords t) d0 (blk0 V c 0 t)) (win0_1.fill (grid0.coords t) d1 (blk0 V c 1 t)) (acc0 V c (t.val - 1)) _)
      isplitl [H0 H1 H2]
      · isplitl [H0]; · iexact H0
        isplitl [H1]; · iexact H1
        iexact H2
      iintro ⟨H0, H1, H2⟩
      isplitl [HΦ]; · iexact HΦ
      isplitl [Ho]; · iexact Ho
      isplitl [H0]; · iexists d0; iexact H0
      isplitl [H1]; · iexists d1; iexact H1
      rw [show ain0 V c t = win0_1.fill (grid0.coords t) d1 (blk0 V c 1 t) from fill0_1_full t h48 _ _ _,
        show xin0 V c t = win0_0.fill (grid0.coords t) d0 (blk0 V c 0 t) from fill0_0_full t h48 _ _ _]
      iexact H2

/-- The library's body obligation for the first region, at every point. -/
theorem body_obligation0 (c : Dev nD) : BodyObligationLoose (dat0 V c) (defs₀ (F := F)) Variants.none () Set.univ := fun t => by
  rw [bigSep_W0, bigSep_W0]
  have hl : idle0 2 (grid0.coords t) = false := live0 2 _
  simp only [hl]
  exact sound_body0 V c t

end Cert.Kernel.Hand

end
-- ==== Proof.KData1.lean ====
import proofs.«118275_g39109972197717_cont_8to1_b_158_6_alg».proof.Proof.KData0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The second region: each stretch of 2048 result columns from the whole projection -/

/-- Window `w`'s block at point `t`: its part inside the array, read off the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The projection: the one block of its array, the same at every point. -/
def xa1 (c : Dev nD) (t : Fin cfg1.N) : S1024x64.Idx → Elt F .f32 :=
  win1_0.fill (grid1.coords t) (fun _ => zero32) (blk1 V c 0 t)
/-- The stretch of `x` at point `t`, zero past the array's last column. -/
def xin1 (c : Dev nD) (t : Fin cfg1.N) : S1024x2048.Idx → Elt F .f32 :=
  win1_1.fill (grid1.coords t) (fun _ => zero32) (blk1 V c 1 t)
/-- The stretch of `A` at point `t`, zero past the array's last row. -/
def ain1 (c : Dev nD) (t : Fin cfg1.N) : S2048x64.Idx → Elt F .f32 :=
  win1_2.fill (grid1.coords t) (fun _ => zero32) (blk1 V c 2 t)
/-- The result's stretch at point `t`: the body's arithmetic of the three. -/
def out1 (c : Dev nD) (t : Fin cfg1.N) : S1024x2048.Idx → Elt F .f32 :=
  k1_pay1 (ain1 V c t) (xa1 V c t) (xin1 V c t)

/-- The proof data of the second region on core `c`: the arrays as the region finds them; after the body the three
    input buffers hold their blocks and the output buffer the body's arithmetic of them. -/
def dat1 (c : Dev nD) : Dat τ (Elt F) Unit ℕ (UR sig nD τ) ℕ cfg1 c where
  A w := V c (Pipeline.arrRef spec1 w)
  after w t := match w with
    | ⟨0, _⟩ => xa1 V c t
    | ⟨1, _⟩ => xin1 V c t
    | ⟨2, _⟩ => ain1 V c t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = xa1 V c t := by dsimp only [dat1]
theorem after1_1 (c : Dev nD) (t : Fin cfg1.N) : (dat1 V c).after 1 t = xin1 V c t := by dsimp only [dat1]
theorem after1_2 (c : Dev nD) (t : Fin cfg1.N) : (dat1 V c).after 2 t = ain1 V c t := by dsimp only [dat1]
theorem after1_3 (c : Dev nD) (t : Fin cfg1.N) : (dat1 V c).after 3 t = out1 V c t := by dsimp only [dat1]

/-- The projection's block is its whole array: a fetch fills the whole buffer. -/
theorem fill1_0_full (t : Fin cfg1.N) (d d' : S1024x64.Idx → Elt F .f32) (g) :
    win1_0.fill (grid1.coords t) d g = win1_0.fill (grid1.coords t) d' g := by
  funext j
  have hm : win1_0.moved (grid1.coords t) j = true := (win1_0.moved_iff _ j).mpr fun a => (j a).isLt
  unfold Window.fill; rw [dif_pos hm, dif_pos hm]

/-! ### What the body finds -/

theorem before1_0 (c : Dev nD) (t : Fin cfg1.N) (d) :
    (dat1 V c).before 0 t d = win1_0.fill (grid1.coords t) d (blk1 V c 0 t) := by
  rw [(dat1 V c).before_in_eq_fetched 0 rfl (fun _ => rfl) (fun _ _ _ => rfl)
    (fun t => by rw [after1_0]; exact win1_0.cut_fill _ _ _) t d]
  unfold Dat.fetched Dat.blockOf; dsimp only [dat1]; rfl
theorem before1_1 (c : Dev nD) (t : Fin cfg1.N) (d) :
    (dat1 V c).before 1 t d = win1_1.fill (grid1.coords t) d (blk1 V c 1 t) := by
  rw [(dat1 V c).before_fetched 1 t (fetch1_1 t)]; unfold Dat.fetched Dat.blockOf; dsimp only [dat1]; rfl
theorem before1_2 (c : Dev nD) (t : Fin cfg1.N) (d) :
    (dat1 V c).before 2 t d = win1_2.fill (grid1.coords t) d (blk1 V c 2 t) := by
  rw [(dat1 V c).before_fetched 2 t (fetch1_2 t)]; unfold Dat.fetched Dat.blockOf; dsimp only [dat1]; rfl
theorem before1_3 (c : Dev nD) (t : Fin cfg1.N) (d) : (dat1 V c).before 3 t d = d := by
  refine (dat1 V c).before_out_reset 3 rfl t ?_ d
  by_cases h0 : t.val = 0
  · exact .inl h0
  · exact .inr ⟨h0, flush1_3 _⟩

/-! ### The body obligation, in two forms -/

/-- With every window's contents forgotten: the body runs from any contents to some contents. -/
theorem sound_body1_forget (c : Dev nD) (t : Fin cfg1.N) :
    iprop((dat1 V c).Φ t.castSucc ∗ (dat1 V c).owesAt () t.castSucc
      ∗ (∃ X, owns (c : Thread nD τ) (st1_0 t) fullShare X) ∗ (∃ X, owns (c : Thread nD τ) (st1_1 t) fullShare X)
      ∗ (∃ X, owns (c : Thread nD τ) (st1_2 t) fullShare X) ∗ (∃ X, owns (c : Thread nD τ) (st1_3 t) fullShare X))
    ⊢ wp frame (wpE (defs₀ (F := F)) Variants.none c none) Set.univ (bodyAt1 t) (fun _ =>
        iprop((dat1 V c).Φ t.succ ∗ (dat1 V c).owesAt () t.succ
          ∗ (∃ X, owns (c : Thread nD τ) (st1_0 t) fullShare X) ∗ (∃ X, owns (c : Thread nD τ) (st1_1 t) fullShare X)
          ∗ (∃ X, owns (c : Thread nD τ) (st1_2 t) fullShare X) ∗ (∃ X, owns (c : Thread nD τ) (st1_3 t) fullShare X))) := by
  rw [show (dat1 V c).Φ t.succ = (dat1 V c).Φ t.castSucc from rfl,
    show (dat1 V c).owesAt () t.succ = (dat1 V c).owesAt () t.castSucc from rfl]
  iintro ⟨HΦ, Ho, ⟨%X1, H1⟩, ⟨%X2, H2⟩, ⟨%X3, H3⟩, ⟨%X4, H4⟩⟩
  iapply (sound_kernel1 (F := F) c Set.univ (grid1.coords t) _ _ _ _ _ _ _ _ X1 X2 X3 X4 _)
  isplitl [H1 H2 H3 H4]
  · isplitl [H1]; · iexact H1
    isplitl [H2]; · iexact H2
    isplitl [H3]; · iexact H3
    iexact H4
  iintro ⟨H1, H2, H3, H4⟩
  isplitl [HΦ]; · iexact HΦ
  isplitl [Ho]; · iexact Ho
  isplitl [H1]; · iexists _; iexact H1
  isplitl [H2]; · iexists _; iexact H2
  isplitl [H3]; · iexists _; iexact H3
  iexists _; iexact H4

theorem body_obligation1_forget (c : Dev nD) :
    BodyObligationLoose (dat1 V c) (defs₀ (F := F)) Variants.none () Set.univ (fun _ => true) := fun t => by
  rw [bigSep_W1]
  exact sound_body1_forget V c t

/-- The columns of a result stretch that lie inside the array do not depend on what the input buffers hold past
    the arrays' end. -/
def Local1 : Prop :=
  ∀ (c : Dev nD) (t : Fin cfg1.N) (d1 : S1024x2048.Idx → Elt F .f32) (d2 : S2048x64.Idx → Elt F .f32),
    win1_3.cut (grid1.coords t)
        (k1_pay1 (win1_2.fill (grid1.coords t) d2 (blk1 V c 2 t)) (xa1 V c t) (win1_1.fill (grid1.coords t) d1 (blk1 V c 1 t)))
      = win1_3.cut (grid1.coords t) (out1 V c t)

/-- With every window's contents named, where the result's columns inside the array depend on the inputs' parts
    inside their arrays only. -/
theorem sound_body1_exact (hloc : Local1 V) (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ (∃ d, owns (c : Thread nD τ) (st1_1 t) fullShare (win1_1.fill (grid1.coords t) d (win1_1.cut (grid1.coords t) ((dat1 V c).after 1 t))))
          ∗ (∃ d, owns (c : Thread nD τ) (st1_2 t) fullShare (win1_2.fill (grid1.coords t) d (win1_2.cut (grid1.coords t) ((dat1 V c).after 2 t))))
          ∗ (∃ d, owns (c : Thread nD τ) (st1_3 t) fullShare (win1_3.fill (grid1.coords t) d (win1_3.cut (grid1.coords t) ((dat1 V c).after 3 t)))))) := by
  rw [show (dat1 V c).Φ t.succ = (dat1 V c).Φ t.castSucc from rfl,
    show (dat1 V c).owesAt () t.succ = (dat1 V c).owesAt () t.castSucc from rfl,
    after1_0, after1_1, after1_2, after1_3,
    show win1_1.cut (grid1.coords t) (xin1 V c t) = blk1 V c 1 t from win1_1.cut_fill _ _ _,
    show win1_2.cut (grid1.coords t) (ain1 V c t) = blk1 V c 2 t from win1_2.cut_fill _ _ _]
  iintro ⟨HΦ, Ho, ⟨%d0, H1⟩, ⟨%d1, H2⟩, ⟨%d2, H3⟩, ⟨%d3, H4⟩⟩
  rw [before1_0 V c t d0, before1_1 V c t d1, before1_2 V c t d2, before1_3 V c t d3,
    show win1_0.fill (grid1.coords t) d0 (blk1 V c 0 t) = xa1 V c t from fill1_0_full t _ _ _]
  iapply (sound_kernel1 (F := F) c Set.univ (grid1.coords t) _ _ _ _ _ _ _ _ (xa1 V c t)
    (win1_1.fill (grid1.coords t) d1 (blk1 V c 1 t)) (win1_2.fill (grid1.coords t) d2 (blk1 V c 2 t)) d3 _)
  isplitl [H1 H2 H3 H4]
  · isplitl [H1]; · iexact H1
    isplitl [H2]; · iexact H2
    isplitl [H3]; · iexact H3
    iexact H4
  iintro ⟨H1, H2, H3, H4⟩
  isplitl [HΦ]; · iexact HΦ
  isplitl [Ho]; · iexact Ho
  isplitl [H1]; · iexact H1
  isplitl [H2]; · iexists d1; iexact H2
  isplitl [H3]; · iexists d2; iexact H3
  iexists (k1_pay1 (win1_2.fill (grid1.coords t) d2 (blk1 V c 2 t)) (xa1 V c t) (win1_1.fill (grid1.coords t) d1 (blk1 V c 1 t)))
  rw [← hloc c t d1 d2, win1_3.fill_cut]
  iexact H4

theorem body_obligation1_exact (hloc : Local1 V) (c : Dev nD) :
    BodyObligationLoose (dat1 V c) (defs₀ (F := F)) Variants.none () Set.univ := fun t => by
  rw [bigSep_W1, bigSep_W1]
  exact sound_body1_exact V hloc c t

end Cert.Kernel.Hand

end
-- ==== Proof.KRun.lean ====
import proofs.«118275_g39109972197717_cont_8to1_b_158_6_alg».proof.Proof.KData1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the two regions one after the other

The buffers' contents at the three boundaries: as launched; after the first region, its arrays at what its write-backs
leave; the second region's arrays are read off the final memory through what its proof data allow them to hold. -/

/-- Core `c`'s buffers at launch: what the first region is entered from. -/
abbrev U0 : Dev nD → Valuation τ sig (Elt F) := fun c b => m (c, b)
abbrev E0 : (c : Dev nD) → (b : Ref sig .tc) → Buf (Elt F) ((c : Thread nD τ).loc b) := fun c b => U0 m c b
/-- After the first region: its arrays at what the pipeline leaves, every other buffer as launched. -/
def U1 (c : Dev nD) : Valuation τ sig (Elt F) :=
  Pipeline.withArrays spec0 c (U0 m c) fun w => (dat0 (E0 m) c).arrAt w cfg0.N
theorem U1_arr (c : Dev nD) (w : Fin cfg0.W) :
    U1 m c (Proc.devRef .tc (Pipeline.arrRef spec0 w)) = (dat0 (E0 m) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m c (Proc.devRef .tc b) = U0 m c (Proc.devRef .tc b) := by
  unfold U1; exact Pipeline.withArrays_of_ne spec0 c _ _ b hb
/-- The same read at the TensorCore's references: what the second region is entered from. -/
abbrev E1 : (c : Dev nD) → (b : Ref sig .tc) → Buf (Elt F) ((c : Thread nD τ).loc b) := fun c b => U1 m c b
theorem hF0 (c : Dev nD) (w : Fin cfg0.W) : (dat0 (E0 m) c).arrAt w cfg0.N = E1 m c (Pipeline.arrRef spec0 w) :=
  (U1_arr m c w).symm
theorem hrest0 (c : Dev nD) : ∀ b, b ∉ Finset.univ.image (Pipeline.arrRef spec0) → E1 m c b = E0 m c b :=
  fun b hb => U1_of_ne m c b fun w e => hb (Finset.mem_image.mpr ⟨w, Finset.mem_univ _, e⟩)

/-- The first region writes neither argument: the second finds them as launched. -/
theorem E1_main_arg0 (c : Dev nD) : E1 m c main_arg0 = m ((c : Thread nD τ).loc main_arg0) :=
  (U1_arr m c 0).trans (((dat0 (E0 m) c).arrAt_in 0 rfl _).trans (A_eq0 (E0 m) c 0))
theorem E1_main_arg1 (c : Dev nD) : E1 m c main_arg1 = m ((c : Thread nD τ).loc main_arg1) :=
  (U1_arr m c 1).trans (((dat0 (E0 m) c).arrAt_in 1 rfl _).trans (A_eq0 (E0 m) c 1))
/-- and the projection at what the first region's write-back left. -/
theorem E1_main_v0 (c : Dev nD) : E1 m c main_v0 = (dat0 (E0 m) c).arrAt 2 cfg0.N := U1_arr m c 2

/-! ## The proof data family and the thread state -/

/-- No pipeline has a prefetched table. -/
abbrev hadm : (p : Fin 2) → (pcfgs (F := F) p).Adm := fun p => (cfgs p).toPCfg_adm

variable (fgt1 : Fin 4 → Bool)

/-- Both pipelines' proof data, read as relations between what the body finds and what it leaves: the first region's
    exactly, the second's forgetting the windows `fgt1` marks. -/
def rdats : (p : Fin 2) → (c : Dev nD) → Pipeline.RDat τ (Elt F) Unit ℕ (UR sig nD τ) ℕ (Pipeline.pin (pcfgs (F := F)) hadm p) c
  | ⟨0, _⟩ => fun c => (dat0 (E0 m) c).toR
  | ⟨1, _⟩ => fun c => (dat1 (E1 m) c).toRForget fgt1
/-- The same data as named contents, for the lemmas stated of those. -/
def pdats : (p : Fin 2) → (c : Dev nD) → Dat τ (Elt F) Unit ℕ (UR sig nD τ) ℕ (Pipeline.pin (pcfgs (F := F)) hadm p) c
  | ⟨0, _⟩ => fun c => dat0 (E0 m) c
  | ⟨1, _⟩ => fun c => dat1 (E1 m) c

abbrev 𝒱₀ : Variants := Variants.none
abbrev L : GSem nD τ sig → Finset Unit := fun _ => ∅
abbrev lv : GSem nD τ sig → Unit → ℕ := fun _ _ => 0
/-- What rides beside the buffers: the core's generator register at some state, and its `owes`, at nothing. -/
abbrev R (c : Dev nD) : sProp 𝕄 := iprop((∃ r, prngReg c r) ∗ ∃ W, owes (c : Thread nD τ) (0 : CellTallies nD τ sig Unit) W)

/-- The last thread state: the second region's arrays at some contents they may hold after its write-backs, and the
    generator register. -/
abbrev Tₙ (c : Dev nD) : sProp 𝕄 := iprop((rdats m fgt1 1 c).arraysAt cfg1.N ∗ ∃ r, prngReg c r)

/-! ## The regions as segments -/

set_option backward.isDefEq.respectTransparency.types false in
/-- The first region: entered from every unscoped buffer as launched, left with its arrays at what the pipeline leaves. -/
def reg0 : Pipeline.RDat.RegionSeg (pcfgs (F := F)) hadm (rdats m fgt1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := Pipeline.RDat.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.RDat.arrays_of_unscopedBufs (p := 0) (pcfgs (F := F)) hadm (rdats m fgt1) launch0.win launch0.arr_whole c
      ((dat0 (E0 m) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    have hjoin' : iprop((dat0 (E0 m) c).arrays ((dat0 (E0 m) c).arrAt · cfg0.N)
          ∗ Pipeline.unscopedRest (Ix := Unit) (Name := ℕ) (U := UR sig nD τ) (Lvl := ℕ) spec0 c (E0 m c))
        ⊢ (StableHlo.held (c : Thread nD τ) (Pipeline.ucRefs τ sig) (U1 m c) : sProp 𝕄) := hjoin
    refine (sep_mono (Entails.of_eq ((dat0 (E0 m) c).toR_arraysAt_eq cfg0.N)) .rfl).trans ?_
    iintro ⟨Ha, HO, HY, Hrest⟩
    imodintro
    isplitl [Ha Hrest]
    · iapply hjoin'; isplitl [Ha]; · iexact Ha
      iexact Hrest
    isplitl [HY]; · iexact HY
    unfold Pipeline.RDat.owesAt Pipeline.owesWithin
    icases HO with ⟨%W, -, HO⟩; iexists W; iexact HO

variable (hb1 : ∀ c, BodyObligationLoose (dat1 (E1 m) c) (defs₀ (F := F)) Variants.none () Set.univ fgt1)

set_option backward.isDefEq.respectTransparency.types false in
/-- The second region: entered from what the first left, left with its arrays at some contents they may hold after
    its write-backs (read off the final memory at the end). -/
def reg1 : Pipeline.RDat.RegionSeg (pcfgs (F := F)) hadm (rdats m fgt1) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (U1 m c) ∗ R c)
  post c := iprop(Tₙ m fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.RDat.arrays_of_unscopedBufs (p := 1) (pcfgs (F := F)) hadm (rdats m fgt1) launch1.win launch1.arr_whole c
      ((dat1 (E1 m) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, -⟩
    imodintro
    isplitl [Ha HY]
    · isplitl [Ha]; · iexact Ha
      iexact HY
    unfold Pipeline.RDat.owesAt Pipeline.owesWithin
    icases HO with ⟨%W, -, HO⟩; iexists W; iexact HO

/-! ## @main as segments, and the launch -/

abbrev segs : List (Pipeline.RDat.Seg (pcfgs (F := F)) hadm (rdats m fgt1) () defs₀ 𝒱₀ L lv) :=
  [ .region (reg0 m fgt1), .region (reg1 m fgt1 hb1) ]

theorem main_run (hb1 : ∀ c, BodyObligationLoose (dat1 (E1 m) c) (defs₀ (F := F)) Variants.none () Set.univ fgt1) (c : Dev nD) :
    main (F := F) c = Pipeline.RDat.Seg.run (segs m fgt1 hb1) := by
  simp only [Pipeline.RDat.Seg.run]
  rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters, every weakly fair execution of @main terminates,
    nothing faulting; the result array ends at contents the second region's proof data allow after its write-backs, and
    the two argument arrays as launched. -/
theorem run (hb1 : ∀ c, BodyObligationLoose (dat1 (E1 m) c) (defs₀ (F := F)) Variants.none () Set.univ fgt1) :
    θ_run defs (onTc (τ := τ) (main (F := F))) ⟨m, fun _ => 0, ρ⟩ (fun r => ∀ c : Dev nD,
      ((dat1 (E1 m) c).toRForget fgt1).ArrAt 3 cfg1.N (r.2.mem ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.RDat.θ_run_regions_kit (pcfgs (F := F)) hadm (rdats m fgt1) () cellOf_inj emb₁ defs₀ 𝒱₀ L lv m ρ main (segs m fgt1 hb1)
    (fun c Q => by rw [main_run m fgt1 hb1 c])
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m fgt1)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ w : Fin cfg1.W, (rdats m fgt1 1 c).ArrAt w cfg1.N (s.mem ((cfg1.win w).arr.view.loc (c : Thread nD τ))))
    (hfin := fun c s' => by
      iintro ⟨⟨Ha, -⟩, HSI⟩
      imodintro
      iapply (Pipeline.RDat.arrays_read (p := 1) (pcfgs (F := F)) hadm (rdats m fgt1) launch1.arr_whole c cfg1.N s')
      isplitl [Ha] <;> iassumption)
    (hQ := fun s h c => by
      have h3 := h c 3
      have h1 := h c 1
      have h2 := h c 2
      rw [show (rdats m fgt1 1 c) = (dat1 (E1 m) c).toRForget fgt1 from rfl] at h1 h2 h3
      rw [Pipeline.RDat.ArrAt_in _ 1 rfl] at h1
      rw [Pipeline.RDat.ArrAt_in _ 2 rfl] at h2
      exact ⟨h3, h1.trans ((A_eq1 (E1 m) c 1).trans (E1_main_arg0 m c)), h2.trans ((A_eq1 (E1 m) c 2).trans (E1_main_arg1 m c))⟩)

/-- info: 'Cert.Kernel.Hand.run' depends on axioms: [propext, Classical.choice, Quot.sound] -/
#guard_msgs in #print axioms run

end Cert.Kernel.Hand

end
-- ==== Proof.Spec.lean ====
/-
  The result both programs compute, as one function of the two argument arrays on the extended reals.

  Write `a n` for row `n` of `A` (64 entries). Its scaled row is
      an n d = A n d / (√(∑ e, A n e · A n e) + ε),     ε the one small literal both programs add,
  the projection of `x` on the scaled rows is
      xa b d = ∑ n, x b n · an n d                        (n over all 100000 items),
  and the result is
      y b n = min 6 (max 0 ((∑ d, xa b d · an n d) − x b n)).

-/
import Mathlib.Data.EReal.Basic
import Mathlib.Algebra.BigOperators.Fin
import Idealize.ShloMosaic.PureOps.Ideal
import Idealize.ShloMosaic.Lib.ValueIdx

noncomputable section

namespace Cert.Elsa

open Idealize.ShloMosaic Idealize.ShloMosaic.ValueIdx
open scoped BigOperators

/-- The shapes of `x`, of `A` and of the projection. -/
abbrev SX : Shape := ⟨2, ![1024, 100000]⟩
abbrev SA : Shape := ⟨2, ![100000, 64]⟩
abbrev SP : Shape := ⟨2, ![1024, 64]⟩

/-- The small constant added to a row's length before dividing. -/
abbrev eps : EReal := Ideal.ofBits .f32 0x2B8CBCCC#32

/-- Entry `d` of a 64-entry row `r` scaled by its length plus `eps`. -/
def scaled (r : Fin 64 → EReal) (d : Fin 64) : EReal :=
  Ideal.div (r d) (Ideal.sqrt (∑ e : Fin 64, r e * r e) + eps)

/-- Row `n` of `A`, scaled. -/
def an (A : SA.Idx → EReal) (n : Fin 100000) (d : Fin 64) : EReal := scaled (fun e => A (ix2 n e)) d

/-- The projection of row `b` of `x` on the scaled rows: a sum over all items. -/
def xa (x : SX.Idx → EReal) (A : SA.Idx → EReal) (b : Fin 1024) (d : Fin 64) : EReal :=
  ∑ n : Fin 100000, x (ix2 b n) * an A n d

/-- The result at row `b`, item `n`: the projection carried back, less the input, kept within `[0, 6]`. -/
def y (x : SX.Idx → EReal) (A : SA.Idx → EReal) (b : Fin 1024) (n : Fin 100000) : EReal :=
  min (Ideal.ofBits .f32 0x40C00000#32)
    (max (Ideal.ofBits .f32 0x00000000#32) ((∑ d : Fin 64, xa x A b d * an A n d) - x (ix2 b n)))

/-- The result as an array. -/
def yArr (x : SX.Idx → EReal) (A : SA.Idx → EReal) : SX.Idx → EReal := fun i => y x A (i 0) (i 1)

end Cert.Elsa

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.PayValue.lean ====
/-
  The values the two kernel bodies store, read at an index, over the extended reals.

  Both bodies first scale a block of 2048 rows of A: row k, with entries r, becomes
      r d / (√(∑ e, r e · r e) + ε)          (d over the 64 columns),
  the sum of squares taken along the row, kept as a column, square-rooted, shifted by the small
  constant ε and spread back along the row before the division. Over the extended reals a change of
  float format is the identity, so the two operands of each matrix product are the values just named.

  * The first body multiplies its block of x, 1024 by 2048, by the scaled block, 2048 by 64: the
    entry (b, d) of the product is the sum over the 2048 items k of x (b, k) times the scaled row k
    at d. A later grid point adds this to what the output buffer already holds.
  * The second body multiplies the projection, 1024 by 64, by the TRANSPOSE of the scaled block:
    entry (b, j) is the inner product over the 64 columns of the projection's row b and the scaled
    row j; it subtracts the block of x and keeps the result within [0, 6]. So an output entry
    (b, j) depends on row j of the A block and entry (b, j) of the x block only, besides the
    projection's row b.
-/
import proofs.«118275_g39109972197717_cont_8to1_b_158_6_alg».proof.Proof.Gen.KernelIdeal.Skeleton
import proofs.«118275_g39109972197717_cont_8to1_b_158_6_alg».proof.Proof.Spec
import proofs.«118275_g39109972197717_cont_8to1_b_158_6_alg».proof.Proof.LibKeepdims
import proofs.«118275_g39109972197717_cont_8to1_b_158_6_alg».proof.Proof.LibMatmulABt
import proofs.«118275_g39109972197717_cont_8to1_b_158_6_alg».proof.Proof.LibPlainMatmul
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Idealize.ShloMosaic Idealize.ShloMosaic.ValueIdx
open scoped BigOperators

/-! ## The scaled block -/

/-- The column of row lengths shifted by ε: the sum of squares along each row, kept as a column, square-rooted,
    plus ε, read at row k. -/
theorem length_col_apply (v : FVec Ideal S2048x64 .f32) (hr : S2048x64.Reduces [1] S2048)
    (hc : S2048.ShapeCasts S2048x1) (k : Fin 2048) :
    addf (sqrt (shapeCast S2048x1 (multiReduction .add [1] S2048 (mulf v v) 0x00000000#32 hr (.inl rfl) rfl) hc))
        (broadcast S2048x1 (Scalar.ofBits (F := Ideal) .f32 0x2B8CBCCC#32)) (ix2 k (0 : Fin 1))
      = Ideal.sqrt (∑ e : Fin 64, v (ix2 k e) * v (ix2 k e)) + Cert.Elsa.eps := by
  refine (addf_apply _ _ _).trans ?_
  refine congrArg (fun t => Ideal.sqrt t + Cert.Elsa.eps) ?_
  refine (Cert.LibKeepdims.shapeCast_a_a1_apply _ hc k 0).trans ?_
  exact Cert.LibKeepdims.multiReduction_add_row (mulf v v) 0x00000000#32 hr (.inl rfl) rfl k

/-- The block divided, row by row, by that column spread along the rows: at (k, d) it is the scaled row k at d. -/
theorem scaled_block_apply (v : FVec Ideal S2048x64 .f32) (hr : S2048x64.Reduces [1] S2048)
    (hc : S2048.ShapeCasts S2048x1) (hb : S2048x1.Broadcasts S2048x64) (k : Fin 2048) (d : Fin 64) :
    divf v (broadcastTo S2048x64
        (addf (sqrt (shapeCast S2048x1 (multiReduction .add [1] S2048 (mulf v v) 0x00000000#32 hr (.inl rfl) rfl) hc))
          (broadcast S2048x1 (Scalar.ofBits (F := Ideal) .f32 0x2B8CBCCC#32))) hb) (ix2 k d)
      = Cert.Elsa.scaled (fun e => v (ix2 k e)) d := by
  refine (divf_apply _ _ _).trans ?_
  unfold Cert.Elsa.scaled
  refine congrArg (Ideal.div (v (ix2 k d))) ?_
  refine (Cert.LibKeepdims.broadcastTo_a1_ab_apply _ hb k d).trans ?_
  exact length_col_apply v hr hc k

/-! ## The second body: the projection carried back, less the input, kept within [0, 6] -/

theorem k1_pay1_apply (v0 : Vec Ideal S2048x64 .f32) (v9 : Vec Ideal S1024x64 .f32) (v14 : Vec Ideal S1024x2048 .f32)
    (b : Fin 1024) (j : Fin 2048) :
    Gen.k1_pay1 (F := Ideal) v0 v9 v14 (ix2 b j)
      = min (Ideal.ofBits .f32 0x40C00000#32) (max (Ideal.ofBits .f32 0x00000000#32)
          ((∑ d : Fin 64, v9 (ix2 b d) * Cert.Elsa.scaled (fun e => v0 (ix2 j e)) d) - v14 (ix2 b j))) := by
  unfold Gen.k1_pay1
  refine congrArg (fun t => min (Ideal.ofBits .f32 0x40C00000#32) (max (Ideal.ofBits .f32 0x00000000#32)
    (t - v14 (ix2 b j)))) ?_
  refine (Cert.LibMatmulABt.matmul_zero_abt Gen.dot_S1024x64_S2048x64_S1024x2048_1_1_0_0_n_n_wf _ _ b j).trans ?_
  refine Finset.sum_congr rfl fun d _ => ?_
  refine congrArg₂ (· * ·) ?_ ?_
  · exact congrFun (shapeCast_self v9 _) (ix2 b d)
  · exact scaled_block_apply v0 _ _ _ j d

/-! ## The first body: the block's share of the projection, stored or added to the buffer -/

theorem k0_pay3_apply (v3 : Vec Ideal S2048x64 .f32) (v12 : Vec Ideal S1024x2048 .f32) (b : Fin 1024) (d : Fin 64) :
    Gen.k0_pay3 (F := Ideal) v3 v12 (ix2 b d)
      = ∑ k : Fin 2048, v12 (ix2 b k) * Cert.Elsa.scaled (fun e => v3 (ix2 k e)) d := by
  unfold Gen.k0_pay3
  refine (Cert.LibPlainMatmul.matmul_zero_plain Gen.dot_S1024x2048_S2048x64_S1024x64_1_0_0_1_n_n_wf _ _ b d).trans ?_
  refine Finset.sum_congr rfl fun k _ => ?_
  refine congrArg₂ (· * ·) rfl ?_
  exact scaled_block_apply v3 _ _ _ k d

theorem k0_pay4_apply (v3 : Vec Ideal S2048x64 .f32) (v12 : Vec Ideal S1024x2048 .f32) (v22 : Vec Ideal S1024x64 .f32)
    (b : Fin 1024) (d : Fin 64) :
    Gen.k0_pay4 (F := Ideal) v3 v12 v22 (ix2 b d)
      = v22 (ix2 b d) + ∑ k : Fin 2048, v12 (ix2 b k) * Cert.Elsa.scaled (fun e => v3 (ix2 k e)) d := by
  unfold Gen.k0_pay4
  refine (addf_apply _ _ _).trans ?_
  exact congrArg₂ (· + ·) (congrFun (shapeCast_self v22 _) (ix2 b d)) (k0_pay3_apply v3 v12 b d)

end Cert.KernelIdeal.PayValue

end
-- ==== Proof.BlockSum.lean ====
/-
  The sum over the 100000 items, cut into 49 stretches of 2048 items, the last stretch padded with zero terms
  (49 · 2048 = 100352 = 100000 + 352), and the running sum of a sequence as the sum of its first terms. Both are
  statements about sums in an additive commutative monoid; they are stated on the extended reals, where the
  specification lives, and need no finiteness.
-/
import Mathlib.Data.EReal.Basic
import Mathlib.Algebra.BigOperators.Fin
import Mathlib.Algebra.BigOperators.Intervals
import Mathlib.Logic.Equiv.Fin.Basic

noncomputable section

namespace Cert.Elsa

open scoped BigOperators

/-- A function of the 100000 items continued by zero to every natural number. -/
def padded (f : Fin 100000 → EReal) (m : ℕ) : EReal := if h : m < 100000 then f ⟨m, h⟩ else 0

theorem padded_of_lt (f : Fin 100000 → EReal) {m : ℕ} (h : m < 100000) : padded f m = f ⟨m, h⟩ := dif_pos h
theorem padded_of_ge (f : Fin 100000 → EReal) {m : ℕ} (h : 100000 ≤ m) : padded f m = 0 := dif_neg (by omega)

/-- The sum over the items is the sum of the continued function over the first 49 · 2048 numbers: the 352 extra
    terms are zero. -/
theorem sum_padded (f : Fin 100000 → EReal) : ∑ n : Fin 100000, f n = ∑ m ∈ Finset.range (49 * 2048), padded f m := by
  rw [show (49 * 2048 : ℕ) = 100000 + 352 from by norm_num, Finset.sum_range_add,
    Finset.sum_eq_zero (s := Finset.range 352) (f := fun x => padded f (100000 + x))
      (fun x _ => padded_of_ge f (by omega)),
    add_zero, ← Fin.sum_univ_eq_sum_range (padded f) 100000]
  exact Finset.sum_congr rfl fun n _ => (padded_of_lt f n.isLt).symm

/-- The first 49 · 2048 numbers, enumerated stretch by stretch. -/
theorem sum_range_blocks (g : ℕ → EReal) :
    ∑ m ∈ Finset.range (49 * 2048), g m = ∑ t : Fin 49, ∑ k : Fin 2048, g (t.val * 2048 + k.val) := by
  rw [← Fin.sum_univ_eq_sum_range g (49 * 2048), ← Equiv.sum_comp (finProdFinEquiv (m := 49) (n := 2048)),
    Fintype.sum_prod_type]
  refine Finset.sum_congr rfl fun t _ => Finset.sum_congr rfl fun k _ => ?_
  show g (k.val + 2048 * t.val) = g (t.val * 2048 + k.val)
  rw [Nat.add_comm, Nat.mul_comm]

/-- The sum over the 100000 items as 49 stretches of 2048 with a zero tail. -/
theorem sum_blocks (f : Fin 100000 → EReal) :
    ∑ n : Fin 100000, f n
      = ∑ t : Fin 49, ∑ k : Fin 2048, (if h : t.val * 2048 + k.val < 100000 then f ⟨t.val * 2048 + k.val, h⟩ else 0) :=
  (sum_padded f).trans (sum_range_blocks (padded f))

/-- A sequence that starts at the first term and adds one more term at every step is the sum of the first terms. -/
theorem fold_blocks (p : ℕ → EReal) (acc : ℕ → EReal) (h0 : acc 0 = p 0) (hs : ∀ n, acc (n + 1) = acc n + p (n + 1))
    (N : ℕ) : acc N = ∑ t ∈ Finset.range (N + 1), p t := by
  induction N with
  | zero => rw [h0, Finset.sum_range_one]
  | succ n ih => rw [hs, ih, Finset.sum_range_succ p (n + 1)]

end Cert.Elsa

end
-- ==== Proof.Value0.lean ====
/-
  The value of the first region over the extended reals: after its 49 points the output array holds the
  projection of x on the scaled rows of A,
      xa b d = ∑ n, x (b, n) · an n d          (n over all 100000 items).

  The steps. A stretch of x (of A) read at an index is the array's entry at column (row) 2048 t + k where that
  lies inside the array, and zero past its end. So one stretch's product at (b, d), the sum over its 2048 items
  of x (b, ·) times the scaled row at d, is the sum of the items' shares, the items past the array's end
  contributing 0 · (a scaled zero row) = 0. The accumulator after point n is the sum of the first n + 1 such
  products (the first point stores, each later one adds), and 49 stretches of 2048 with a zero tail enumerate
  the 100000 items. The output window is written back once, at the last point, and its one block is the whole
  array.
-/
import proofs.«118275_g39109972197717_cont_8to1_b_158_6_alg».proof.Proof.Data0
import proofs.«118275_g39109972197717_cont_8to1_b_158_6_alg».proof.Proof.PayValue
import proofs.«118275_g39109972197717_cont_8to1_b_158_6_alg».proof.Proof.BlockSum
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## The stretches read at an index -/

/-- The printed index maps over the grid: the block of x at point t is block (0, t), that of A block (t, 0). -/
theorem idx0_0_0 : ∀ t : Fin cfg0.N, win0_0.index t (0 : Fin 2) = 0 :=
  (by decide +kernel : ∀ t : Fin grid0.N, win0_0.index t (0 : Fin 2) = 0)
theorem idx0_0_1 : ∀ t : Fin cfg0.N, win0_0.index t (1 : Fin 2) = t.val :=
  (by decide +kernel : ∀ t : Fin grid0.N, win0_0.index t (1 : Fin 2) = t.val)
theorem idx0_1_0 : ∀ t : Fin cfg0.N, win0_1.index t (0 : Fin 2) = t.val :=
  (by decide +kernel : ∀ t : Fin grid0.N, win0_1.index t (0 : Fin 2) = t.val)
theorem idx0_1_1 : ∀ t : Fin cfg0.N, win0_1.index t (1 : Fin 2) = 0 :=
  (by decide +kernel : ∀ t : Fin grid0.N, win0_1.index t (1 : Fin 2) = 0)

theorem blk0_0_apply (c : Dev nD) (t : Fin cfg0.N) (y : ((cfg0.win 0).xblock (cfg0.grid.coords t)).Idx) (b : Fin 1024) (n : Fin 100000)
    (hb : (y 0).val = b.val) (hn : t.val * 2048 + (y 1).val = n.val) :
    blk0 V c 0 t y = V c main_arg0 (ix2 b n) := by
  unfold blk0
  rw [View.read_apply]
  show V c main_arg0 (((cfg0.win 0).blk t).view.emb y) = V c main_arg0 (ix2 b n)
  refine congrArg (V c main_arg0) ?_
  funext a; apply Fin.ext
  match a with
  | ⟨0, _⟩ => show win0_0.index t (0 : Fin 2) * 1024 + 1 * (y 0).val = b.val; rw [idx0_0_0 t, Nat.zero_mul, Nat.zero_add, Nat.one_mul]; exact hb
  | ⟨1, _⟩ => show win0_0.index t (1 : Fin 2) * 2048 + 1 * (y 1).val = n.val; rw [idx0_0_1 t, Nat.one_mul]; exact hn

theorem blk0_1_apply (c : Dev nD) (t : Fin cfg0.N) (y : ((cfg0.win 1).xblock (cfg0.grid.coords t)).Idx) (n : Fin 100000) (e : Fin 64)
    (hn : t.val * 2048 + (y 0).val = n.val) (he : (y 1).val = e.val) :
    blk0 V c 1 t y = V c main_arg1 (ix2 n e) := by
  unfold blk0
  rw [View.read_apply]
  show V c main_arg1 (((cfg0.win 1).blk t).view.emb y) = V c main_arg1 (ix2 n e)
  refine congrArg (V c main_arg1) ?_
  funext a; apply Fin.ext
  match a with
  | ⟨0, _⟩ => show win0_1.index t (0 : Fin 2) * 2048 + 1 * (y 0).val = n.val; rw [idx0_1_0 t, Nat.one_mul]; exact hn
  | ⟨1, _⟩ => show win0_1.index t (1 : Fin 2) * 64 + 1 * (y 1).val = e.val; rw [idx0_1_1 t, Nat.zero_mul, Nat.zero_add, Nat.one_mul]; exact he

theorem zero32_ideal : (zero32 (F := Ideal)) = (0 : EReal) := Ideal.ofBits_zero_f32

/-- The stretch of x at point t, read at an index: the array's entry where the column lies inside the array, zero past its end. -/
theorem xin0_apply (c : Dev nD) (t : Fin cfg0.N) (b : Fin 1024) (k : Fin 2048) :
    xin0 V c t (ix2 b k)
      = if h : t.val * 2048 + k.val < 100000 then V c main_arg0 (ix2 b ⟨t.val * 2048 + k.val, h⟩) else (0 : EReal) := by
  have hN : cfg0.N = 49 := N_0
  have ht : t.val < 49 := lt_of_lt_of_eq t.isLt hN
  unfold xin0 Window.fill
  by_cases h : t.val * 2048 + k.val < 100000
  · have hm : win0_0.moved (grid0.coords t) (ix2 b k) = true :=
      (moved0_0 t _).mpr fun h48 => by show k.val < 1696; omega
    rw [dif_pos hm, dif_pos h]
    exact blk0_0_apply V c t _ b ⟨_, h⟩ rfl rfl
  · have hm : ¬ win0_0.moved (grid0.coords t) (ix2 b k) = true := fun hm => h (by
      have h2 : t.val = 48 → k.val < 1696 := (moved0_0 t _).mp hm
      have hk := k.isLt
      omega)
    rw [dif_neg hm, dif_neg h]
    exact zero32_ideal

/-- The stretch of A at point t, read at an index: the array's entry where the row lies inside the array, zero past its end. -/
theorem ain0_apply (c : Dev nD) (t : Fin cfg0.N) (k : Fin 2048) (e : Fin 64) :
    ain0 V c t (ix2 k e)
      = if h : t.val * 2048 + k.val < 100000 then V c main_arg1 (ix2 ⟨t.val * 2048 + k.val, h⟩ e) else (0 : EReal) := by
  have hN : cfg0.N = 49 := N_0
  have ht : t.val < 49 := lt_of_lt_of_eq t.isLt hN
  unfold ain0 Window.fill
  by_cases h : t.val * 2048 + k.val < 100000
  · have hm : win0_1.moved (grid0.coords t) (ix2 k e) = true :=
      (moved0_1 t _).mpr fun h48 => by show k.val < 1696; omega
    rw [dif_pos hm, dif_pos h]
    exact blk0_1_apply V c t _ ⟨_, h⟩ e rfl rfl
  · have hm : ¬ win0_1.moved (grid0.coords t) (ix2 k e) = true := fun hm => h (by
      have h2 : t.val = 48 → k.val < 1696 := (moved0_1 t _).mp hm
      have hk := k.isLt
      omega)
    rw [dif_neg hm, dif_neg h]
    exact zero32_ideal

/-- The two argument arrays as the region finds them, as functions to the extended reals. -/
abbrev xArr (c : Dev nD) : Cert.Elsa.SX.Idx → EReal := V c main_arg0
abbrev aArr (c : Dev nD) : Cert.Elsa.SA.Idx → EReal := V c main_arg1

/-- One item's share of the projection at row b, column d. -/
def item0 (c : Dev nD) (b : Fin 1024) (d : Fin 64) (n : Fin 100000) : EReal :=
  xArr V c (ix2 b n) * Cert.Elsa.an (aArr V c) n d

/-- One term of a stretch's product: the item's share where the item exists, zero past the arrays' end
    (there the entry of x is zero). -/
theorem term0 (c : Dev nD) (t : Fin cfg0.N) (tn : ℕ) (htn : t.val = tn) (b : Fin 1024) (d : Fin 64) (k : Fin 2048) :
    xin0 V c t (ix2 b k) * Cert.Elsa.scaled (fun e => ain0 V c t (ix2 k e)) d
      = if h : tn * 2048 + k.val < 100000 then item0 V c b d ⟨tn * 2048 + k.val, h⟩ else 0 := by
  subst htn
  rw [xin0_apply]
  by_cases h : t.val * 2048 + k.val < 100000
  · rw [dif_pos h, dif_pos h]
    have hrow : (fun e => ain0 V c t (ix2 k e)) = fun e => V c main_arg1 (ix2 ⟨t.val * 2048 + k.val, h⟩ e) :=
      funext fun e => by rw [ain0_apply, dif_pos h]
    rw [hrow]
    rfl
  · rw [dif_neg h, dif_neg h, zero_mul]

/-- The product of stretch t at (b, d): the shares of its 2048 items, zero for the items past the array's end. -/
def stretch0 (c : Dev nD) (b : Fin 1024) (d : Fin 64) (t : ℕ) : EReal :=
  ∑ k : Fin 2048, (if h : t * 2048 + k.val < 100000 then item0 V c b d ⟨t * 2048 + k.val, h⟩ else 0)

/-- There are 49 stretches: a later one has no item. -/
theorem stretch0_of_ge (c : Dev nD) (b : Fin 1024) (d : Fin 64) (t : ℕ) (ht : 49 ≤ t) : stretch0 V c b d t = 0 :=
  Finset.sum_eq_zero fun k _ => dif_neg (by have := k.isLt; omega)

/-- The accumulator after point n, at (b, d): the sum of the first n + 1 stretches' products. -/
theorem acc0_apply (c : Dev nD) (b : Fin 1024) (d : Fin 64) (n : ℕ) :
    acc0 V c n (ix2 b d) = ∑ t ∈ Finset.range (n + 1), stretch0 V c b d t := by
  have hN : cfg0.N = 49 := N_0
  refine Cert.Elsa.fold_blocks (stretch0 V c b d) (fun n => acc0 V c n (ix2 b d)) ?_ ?_ n
  · show acc0 V c 0 (ix2 b d) = stretch0 V c b d 0
    have h0 : 0 < cfg0.N := by omega
    have e : acc0 V c 0 = k0_pay3 (ain0 V c ⟨0, h0⟩) (xin0 V c ⟨0, h0⟩) := acc0_zero V c ⟨0, h0⟩ rfl
    rw [e, Cert.KernelIdeal.PayValue.k0_pay3_apply]
    exact Finset.sum_congr rfl fun k _ => term0 V c _ 0 rfl b d k
  · intro m
    show acc0 V c (m + 1) (ix2 b d) = acc0 V c m (ix2 b d) + stretch0 V c b d (m + 1)
    by_cases h : m + 1 < cfg0.N
    · have e : acc0 V c (m + 1) = k0_pay4 (ain0 V c ⟨m + 1, h⟩) (xin0 V c ⟨m + 1, h⟩) (acc0 V c m) :=
        acc0_succ V c ⟨m + 1, h⟩ (Nat.succ_ne_zero m)
      rw [e, Cert.KernelIdeal.PayValue.k0_pay4_apply]
      exact congrArg (acc0 V c m (ix2 b d) + ·) (Finset.sum_congr rfl fun k _ => term0 V c _ (m + 1) rfl b d k)
    · have e : acc0 V c (m + 1) = acc0 V c m := by rw [acc0, dif_neg h]
      rw [e, stretch0_of_ge V c b d (m + 1) (by omega), add_zero]

/-- After the last point the accumulator is the whole projection: the 49 stretches' products, the last stretch's
    352 missing items contributing zero, add up to the sum over the 100000 items. -/
theorem acc0_last (c : Dev nD) (b : Fin 1024) (d : Fin 64) :
    acc0 V c 48 (ix2 b d) = Cert.Elsa.xa (xArr V c) (aArr V c) b d := by
  refine (acc0_apply V c b d 48).trans ?_
  show ∑ t ∈ Finset.range 49, stretch0 V c b d t = ∑ n : Fin 100000, item0 V c b d n
  rw [Cert.Elsa.sum_blocks (item0 V c b d), ← Fin.sum_univ_eq_sum_range (stretch0 V c b d) 49]
  exact Finset.sum_congr rfl fun t _ => rfl

/-- The function the output array ends holding. -/
def result0 (c : Dev nD) : S1024x64.Idx → EReal := fun i => Cert.Elsa.xa (xArr V c) (aArr V c) (i 0) (i 1)

/-- The output's one block is block (0, 0) at every point. -/
theorem idx0_2_0 : ∀ t : Fin cfg0.N, win0_2.index t (0 : Fin 2) = 0 :=
  (by decide +kernel : ∀ t : Fin grid0.N, win0_2.index t (0 : Fin 2) = 0)
theorem idx0_2_1 : ∀ t : Fin cfg0.N, win0_2.index t (1 : Fin 2) = 0 :=
  (by decide +kernel : ∀ t : Fin grid0.N, win0_2.index t (1 : Fin 2) = 0)

/-- What the one write-back, at the last point, writes is the whole of that function: the block is the array. -/
theorem flushed0_eq (c : Dev nD) (t : Fin cfg0.N) (hf : (cfg0.win 2).flush t = true) :
    (dat0 V c).flushed 2 t = ((cfg0.win 2).blk t).view.read (Elt Ideal) (result0 V c) := by
  have hN : cfg0.N = 49 := N_0
  have h48 : t.val = 48 := by
    have h1 := (flush0_2 t).mp hf
    have h2 := t.isLt
    omega
  show (cfg0.win 2).cut (grid0.coords t) ((dat0 V c).after 2 t) = _
  rw [after0_2, h48]
  funext j'
  obtain ⟨p, q, hpq⟩ : ∃ (p : Fin 1024) (q : Fin 64), win0_2.xinj (grid0.coords t) j' = ix2 p q :=
    ⟨_, _, eq_ix2 (n0 := 1024) (n1 := 64) (win0_2.xinj (grid0.coords t) j')⟩
  have hpv : (j' 0).val = p.val := congrArg (fun f : S1024x64.Idx => (f 0).val) hpq
  have hqv : (j' 1).val = q.val := congrArg (fun f : S1024x64.Idx => (f 1).val) hpq
  have hi0 : ((((cfg0.win 2).blk t).view.emb j' : S1024x64.Idx) 0).val = p.val := by
    show win0_2.index t (0 : Fin 2) * 1024 + 1 * (j' 0).val = p.val
    rw [idx0_2_0 t, hpv, Nat.zero_mul, Nat.zero_add, Nat.one_mul]
  have hi1 : ((((cfg0.win 2).blk t).view.emb j' : S1024x64.Idx) 1).val = q.val := by
    show win0_2.index t (1 : Fin 2) * 64 + 1 * (j' 1).val = q.val
    rw [idx0_2_1 t, hqv, Nat.zero_mul, Nat.zero_add, Nat.one_mul]
  have hZ : ∀ (b : Fin 1024) (d : Fin 64), acc0 V c 48 (ix2 b d) = Cert.Elsa.xa (xArr V c) (aArr V c) b d := acc0_last V c
  generalize acc0 V c 48 = Z at hZ ⊢
  have hG : ∀ i : S1024x64.Idx, result0 V c i = Cert.Elsa.xa (xArr V c) (aArr V c) (i 0) (i 1) := fun _ => rfl
  generalize result0 V c = G at hG ⊢
  show Z (win0_2.xinj (grid0.coords t) j') = G (((cfg0.win 2).blk t).view.emb j')
  rw [hpq, hZ, hG]
  generalize ((cfg0.win 2).blk t).view.emb j' = i at hi0 hi1
  exact congrArg₂ (Cert.Elsa.xa (xArr V c) (aArr V c)) (Fin.ext hi0.symm) (Fin.ext hi1.symm)

/-- After the 49 points the output array holds the projection of x on the scaled rows of A. -/
theorem final0 (c : Dev nD) : (dat0 (F := Ideal) V c).arrAt 2 cfg0.N
    = fun i => Cert.Elsa.xa (V c main_arg0) (V c main_arg1) (i 0) (i 1) := by
  have hN : cfg0.N = 49 := N_0
  refine (dat0 V c).arrAt_eq_of_cover 2 (result0 V c) (fun t hf => flushed0_eq V c t hf) fun i => ?_
  have h48 : 48 < cfg0.N := by omega
  refine ⟨⟨48, h48⟩, (flush0_2 _).mpr rfl, ?_⟩
  show i ∈ ((View.whole main_v0).slice (win0_2.rect ⟨48, h48⟩)).set
  rw [View.set_slice_whole, Rect.mem_set_unit]
  intro a
  match a with
  | ⟨0, _⟩ =>
    show win0_2.index ⟨48, h48⟩ (0 : Fin 2) * 1024 ≤ (i 0).val ∧ (i 0).val < win0_2.index ⟨48, h48⟩ (0 : Fin 2) * 1024 + 1024
    rw [idx0_2_0, Nat.zero_mul, Nat.zero_add]; exact ⟨Nat.zero_le _, (i 0).isLt⟩
  | ⟨1, _⟩ =>
    show win0_2.index ⟨48, h48⟩ (1 : Fin 2) * 64 ≤ (i 1).val ∧ (i 1).val < win0_2.index ⟨48, h48⟩ (1 : Fin 2) * 64 + 64
    rw [idx0_2_1, Nat.zero_mul, Nat.zero_add]; exact ⟨Nat.zero_le _, (i 1).isLt⟩

end Cert.KernelIdeal.Hand
end
-- ==== Proof.Value1.lean ====
/-
  The second region's result over the extended reals.

  At grid point t the body reads the whole projection, the stretch of x of columns 2048 t ‥ 2048 t + 2047 and the
  stretch of A of rows 2048 t ‥ 2048 t + 2047, and stores the stretch of the result of the same columns. The last
  stretch (t = 48) overhangs the arrays: only its first 1696 columns, or rows, lie inside.

  * An entry (b, j) of the result stretch is the inner product of the projection's row b with the scaled row j of
    the A stretch, less entry (b, j) of the x stretch, kept within [0, 6]. So the entries whose column lies inside
    the array read only rows of A and entries of x that lie inside their arrays: what the buffers hold past the
    arrays' end does not reach them.
  * Read off the arrays, entry (b, j) of stretch t is the result at (b, 2048 t + j); column n of the result is
    written by the point n / 2048 and by no other.
-/
import proofs.«118275_g39109972197717_cont_8to1_b_158_6_alg».proof.Proof.Data1
import proofs.«118275_g39109972197717_cont_8to1_b_158_6_alg».proof.Proof.PayValue
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window Grid)
open scoped BigOperators

variable (V : (c : Dev nD) → (b : Ref sig .tc) → Buf (Elt Ideal) ((c : Thread nD τ).loc b))

/-! ### How much of each stretch lies inside its array -/

/-- Of x's stretch every row and, but at the last point, every column; at the last point the first 1696 columns. -/
theorem xsize1_1 : ∀ t : Fin cfg1.N, win1_1.xsize (grid1.coords t) 0 = 1024 ∧ win1_1.xsize (grid1.coords t) 1 = (if t.val = 48 then 1696 else 2048) :=
  (by decide +kernel : ∀ t : Fin grid1.N, win1_1.xsize (grid1.coords t) 0 = 1024 ∧ win1_1.xsize (grid1.coords t) 1 = (if t.val = 48 then 1696 else 2048))
/-- Of A's stretch every column and, but at the last point, every row; at the last point the first 1696 rows. -/
theorem xsize1_2 : ∀ t : Fin cfg1.N, win1_2.xsize (grid1.coords t) 0 = (if t.val = 48 then 1696 else 2048) ∧ win1_2.xsize (grid1.coords t) 1 = 64 :=
  (by decide +kernel : ∀ t : Fin grid1.N, win1_2.xsize (grid1.coords t) 0 = (if t.val = 48 then 1696 else 2048) ∧ win1_2.xsize (grid1.coords t) 1 = 64)
/-- Of the result's stretch, as of x's. -/
theorem xsize1_3 : ∀ t : Fin cfg1.N, win1_3.xsize (grid1.coords t) 0 = 1024 ∧ win1_3.xsize (grid1.coords t) 1 = (if t.val = 48 then 1696 else 2048) :=
  (by decide +kernel : ∀ t : Fin grid1.N, win1_3.xsize (grid1.coords t) 0 = 1024 ∧ win1_3.xsize (grid1.coords t) 1 = (if t.val = 48 then 1696 else 2048))

theorem moved1_1 (t : Fin cfg1.N) (b : Fin 1024) (j : Fin 2048) (h : t.val = 48 → j.val < 1696) :
    win1_1.moved (grid1.coords t) (ix2 b j) = true := by
  rw [Window.moved_iff]
  obtain ⟨e0, e1⟩ := xsize1_1 t
  intro a
  match a with
  | ⟨0, _⟩ => show b.val < win1_1.xsize (grid1.coords t) 0; rw [e0]; exact b.isLt
  | ⟨1, _⟩ =>
    show j.val < win1_1.xsize (grid1.coords t) 1; rw [e1]
    by_cases ht : t.val = 48
    · rw [if_pos ht]; exact h ht
    · rw [if_neg ht]; exact j.isLt

theorem moved1_2 (t : Fin cfg1.N) (j : Fin 2048) (e : Fin 64) (h : t.val = 48 → j.val < 1696) :
    win1_2.moved (grid1.coords t) (ix2 j e) = true := by
  rw [Window.moved_iff]
  obtain ⟨e0, e1⟩ := xsize1_2 t
  intro a
  match a with
  | ⟨0, _⟩ =>
    show j.val < win1_2.xsize (grid1.coords t) 0; rw [e0]
    by_cases ht : t.val = 48
    · rw [if_pos ht]; exact h ht
    · rw [if_neg ht]; exact j.isLt
  | ⟨1, _⟩ => show e.val < win1_2.xsize (grid1.coords t) 1; rw [e1]; exact e.isLt

/-- Where the transfer moves an entry, the filled buffer holds the block's entry, whatever it held before. -/
theorem fill_eq_of_moved {G : Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-! ### The columns inside the array do not see what lies past the arrays' end -/

theorem local1 : Local1 (F := Ideal) V := by
  intro c t d1 d2
  funext j'
  obtain ⟨p, q, hpq⟩ : ∃ (p : Fin 1024) (q : Fin 2048), win1_3.xinj (grid1.coords t) j' = ix2 p q :=
    ⟨_, _, eq_ix2 (n0 := 1024) (n1 := 2048) (win1_3.xinj (grid1.coords t) j')⟩
  have hqv : (j' 1).val = q.val := congrArg (fun f : S1024x2048.Idx => (f 1).val) hpq
  have hq : t.val = 48 → q.val < 1696 := fun ht => by
    have h1 : (j' 1).val < win1_3.xsize (grid1.coords t) 1 := (j' 1).isLt
    rw [(xsize1_3 t).2, if_pos ht] at h1
    omega
  show k1_pay1 (F := Ideal) _ _ _ (win1_3.xinj (grid1.coords t) j') = out1 V c t (win1_3.xinj (grid1.coords t) j')
  rw [hpq]
  unfold out1
  refine (PayValue.k1_pay1_apply _ _ _ p q).trans ?_
  refine Eq.trans ?_ (PayValue.k1_pay1_apply _ _ _ p q).symm
  have hA : (fun e : Fin 64 => win1_2.fill (grid1.coords t) d2 (blk1 V c 2 t) (ix2 q e))
      = fun e : Fin 64 => ain1 V c t (ix2 q e) :=
    funext fun e => fill_eq_of_moved win1_2 _ _ _ _ _ (moved1_2 t q e hq)
  have hX : win1_1.fill (grid1.coords t) d1 (blk1 V c 1 t) (ix2 p q) = xin1 V c t (ix2 p q) :=
    fill_eq_of_moved win1_1 _ _ _ _ _ (moved1_1 t p q hq)
  rw [hA, hX]

/-! ### Each stretch read off the arrays -/

/-- The printed index maps over the 49 points: the projection's block is always block (0, 0); stretch t of x and of
    the result is block (0, t), stretch t of A block (t, 0). -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = t.val :=
  (by decide +kernel : ∀ t : Fin grid1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0
    ∧ win1_3.index t (0 : Fin 2) = 0 ∧ win1_3.index t (1 : Fin 2) = t.val)

/-- Where the transfer moves an entry, the filled buffer holds the block's entry of the same coordinates. -/
theorem fill_of_moved {G : Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- The projection's buffer at (b, d) is the projection's entry (b, d). -/
theorem xa1_apply (c : Dev nD) (t : Fin cfg1.N) (b : Fin 1024) (d : Fin 64) :
    xa1 V c t (ix2 b d) = V c main_v0 (ix2 b d) := by
  have hm : win1_0.moved (grid1.coords t) (ix2 b d) = true :=
    (win1_0.moved_iff _ _).mpr fun a => ((ix2 b d : S1024x64.Idx) a).isLt
  unfold xa1
  rw [fill_of_moved win1_0 _ _ _ _ hm]
  obtain ⟨e0, e1, -⟩ := idx_facts1 t
  show V c main_v0 (((cfg1.win 0).blk t).view.emb _) = _
  refine congrArg (V c main_v0) (funext fun a => Fin.ext ?_)
  match a with
  | ⟨0, _⟩ => show win1_0.index t (0 : Fin 2) * 1024 + 1 * b.val = b.val; rw [e0]; omega
  | ⟨1, _⟩ => show win1_0.index t (1 : Fin 2) * 64 + 1 * d.val = d.val; rw [e1]; omega

/-- x's buffer at an entry (b, j) inside the array is x's entry (b, 2048 t + j). -/
theorem xin1_apply (c : Dev nD) (t : Fin cfg1.N) (b : Fin 1024) (j : Fin 2048) (h : t.val = 48 → j.val < 1696)
    (i : S1024x100000.Idx) (hi0 : (i 0).val = b.val) (hi1 : (i 1).val = t.val * 2048 + j.val) :
    xin1 V c t (ix2 b j) = V c main_arg0 i := by
  unfold xin1
  rw [fill_of_moved win1_1 _ _ _ _ (moved1_1 t b j h)]
  obtain ⟨-, -, e0, e1, -⟩ := idx_facts1 t
  show V c main_arg0 (((cfg1.win 1).blk t).view.emb _) = _
  refine congrArg (V c main_arg0) (funext fun a => Fin.ext ?_)
  match a with
  | ⟨0, _⟩ => show win1_1.index t (0 : Fin 2) * 1024 + 1 * b.val = (i 0).val; rw [e0, hi0]; omega
  | ⟨1, _⟩ => show win1_1.index t (1 : Fin 2) * 2048 + 1 * j.val = (i 1).val; rw [e1, hi1]; omega

/-- A's buffer at an entry (j, e) of a row inside the array is A's entry (2048 t + j, e). -/
theorem ain1_apply (c : Dev nD) (t : Fin cfg1.N) (j : Fin 2048) (e : Fin 64) (h : t.val = 48 → j.val < 1696)
    (n : Fin 100000) (hn : n.val = t.val * 2048 + j.val) :
    ain1 V c t (ix2 j e) = V c main_arg1 (ix2 n e) := by
  unfold ain1
  rw [fill_of_moved win1_2 _ _ _ _ (moved1_2 t j e h)]
  obtain ⟨-, -, -, -, e0, e1, -⟩ := idx_facts1 t
  show V c main_arg1 (((cfg1.win 2).blk t).view.emb _) = _
  refine congrArg (V c main_arg1) (funext fun a => Fin.ext ?_)
  match a with
  | ⟨0, _⟩ => show win1_2.index t (0 : Fin 2) * 2048 + 1 * j.val = n.val; rw [e0, hn]; omega
  | ⟨1, _⟩ => show win1_2.index t (1 : Fin 2) * 64 + 1 * e.val = e.val; rw [e1]; omega

/-! ### The result array -/

/-- The result as one function of the projection P, of x and of A: at (b, n) the inner product of P's row b and the
    scaled row n of A, less x's entry, kept within [0, 6]. -/
def result1 (P : S1024x64.Idx → EReal) (x : S1024x100000.Idx → EReal) (A : S100000x64.Idx → EReal) :
    S1024x100000.Idx → EReal := fun i =>
  min (Ideal.ofBits .f32 0x40C00000#32) (max (Ideal.ofBits .f32 0x00000000#32)
    ((∑ d : Fin 64, P (ix2 (i 0) d) * Cert.Elsa.an A (i 1) d) - x i))

/-- What point t writes back is stretch t of that function. -/
theorem flushed1_eq (c : Dev nD) (t : Fin cfg1.N) :
    (dat1 V c).flushed 3 t
      = ((cfg1.win 3).blk t).view.read (Elt Ideal) (result1 (V c main_v0) (V c main_arg0) (V c main_arg1)) := by
  show (cfg1.win 3).cut (grid1.coords t) ((dat1 V c).after 3 t) = _
  rw [after1_3]
  funext j'
  obtain ⟨p, q, hpq⟩ : ∃ (p : Fin 1024) (q : Fin 2048), win1_3.xinj (grid1.coords t) j' = ix2 p q :=
    ⟨_, _, eq_ix2 (n0 := 1024) (n1 := 2048) (win1_3.xinj (grid1.coords t) j')⟩
  have hpv : (j' 0).val = p.val := congrArg (fun f : S1024x2048.Idx => (f 0).val) hpq
  have hqv : (j' 1).val = q.val := congrArg (fun f : S1024x2048.Idx => (f 1).val) hpq
  have hq : t.val = 48 → q.val < 1696 := fun ht => by
    have h1 : (j' 1).val < win1_3.xsize (grid1.coords t) 1 := (j' 1).isLt
    rw [(xsize1_3 t).2, if_pos ht] at h1
    omega
  obtain ⟨-, -, -, -, -, -, e0, e1⟩ := idx_facts1 t
  have hi0 : ((((cfg1.win 3).blk t).view.emb j' : S1024x100000.Idx) 0).val = p.val := by
    show win1_3.index t (0 : Fin 2) * 1024 + 1 * (j' 0).val = p.val; rw [e0, hpv]; omega
  have hi1 : ((((cfg1.win 3).blk t).view.emb j' : S1024x100000.Idx) 1).val = t.val * 2048 + q.val := by
    show win1_3.index t (1 : Fin 2) * 2048 + 1 * (j' 1).val = t.val * 2048 + q.val; rw [e1, hqv]; omega
  show out1 V c t (win1_3.xinj (grid1.coords t) j')
    = result1 (V c main_v0) (V c main_arg0) (V c main_arg1) (((cfg1.win 3).blk t).view.emb j')
  rw [hpq]
  unfold out1 result1
  refine (PayValue.k1_pay1_apply _ _ _ p q).trans ?_
  generalize ((cfg1.win 3).blk t).view.emb j' = i at hi0 hi1
  have hrow : (fun d : Fin 64 => xa1 V c t (ix2 p d)) = fun d : Fin 64 => V c main_v0 (ix2 (i 0) d) :=
    funext fun d => (xa1_apply V c t p d).trans (congrArg (V c main_v0) (funext fun a => Fin.ext (by
      match a with
      | ⟨0, _⟩ => exact hi0.symm
      | ⟨1, _⟩ => rfl)))
  have hA : (fun e : Fin 64 => ain1 V c t (ix2 q e)) = fun e : Fin 64 => V c main_arg1 (ix2 (i 1) e) :=
    funext fun e => ain1_apply V c t q e hq (i 1) hi1
  have hX : xin1 V c t (ix2 p q) = V c main_arg0 i := xin1_apply V c t p q hq i hi0 hi1
  unfold Cert.Elsa.an
  rw [hA, hX]
  exact congrArg (fun r : Fin 64 → EReal => min (Ideal.ofBits .f32 0x40C00000#32) (max (Ideal.ofBits .f32 0x00000000#32)
    ((∑ d : Fin 64, r d * Cert.Elsa.scaled (fun e => V c main_arg1 (ix2 (i 1) e)) d) - V c main_arg0 i))) hrow

/-- An entry of the result array is in point t's stretch iff its column is among the stretch's columns inside the array. -/
theorem mem_blk1_3 (t : Fin cfg1.N) (i : S1024x100000.Idx) :
    i ∈ ((cfg1.win 3).blk t).view.set ↔ t.val * 2048 ≤ (i 1).val ∧ (i 1).val < t.val * 2048 + (if t.val = 48 then 1696 else 2048) := by
  show i ∈ ((View.whole main_v1).slice (win1_3.rect t)).set ↔ _
  rw [View.set_slice_whole, Rect.mem_set_unit]
  obtain ⟨-, -, -, -, -, -, e0, e1⟩ := idx_facts1 t
  obtain ⟨x0, x1⟩ := xsize1_3 t
  have h0 : (i 0).val < 1024 := (i 0).isLt
  constructor
  · intro h
    have h1 : win1_3.index t (1 : Fin 2) * 2048 ≤ (i 1).val ∧ (i 1).val < win1_3.index t (1 : Fin 2) * 2048 + win1_3.xsize (grid1.coords t) 1 := h 1
    rw [e1, x1] at h1; exact h1
  · intro h a
    match a with
    | ⟨0, _⟩ =>
      show win1_3.index t (0 : Fin 2) * 1024 ≤ (i 0).val ∧ (i 0).val < win1_3.index t (0 : Fin 2) * 1024 + win1_3.xsize (grid1.coords t) 0
      rw [e0, x0, Nat.zero_mul, Nat.zero_add]; exact ⟨Nat.zero_le _, h0⟩
    | ⟨1, _⟩ =>
      show win1_3.index t (1 : Fin 2) * 2048 ≤ (i 1).val ∧ (i 1).val < win1_3.index t (1 : Fin 2) * 2048 + win1_3.xsize (grid1.coords t) 1
      rw [e1, x1]; exact h

/-- After the 49 points the result array holds that function of the arrays the region finds: column n is written by
    the point n / 2048. -/
theorem final1 (c : Dev nD) : (dat1 (F := Ideal) V c).arrAt 3 cfg1.N
    = result1 (V c main_v0) (V c main_arg0) (V c main_arg1) := by
  refine (dat1 V c).arrAt_eq_of_cover 3 (result1 (V c main_v0) (V c main_arg0) (V c main_arg1))
    (fun t _ => flushed1_eq V c t) fun i => ?_
  have hN : cfg1.N = 49 := N_1
  have h1 : (i 1).val < 100000 := (i 1).isLt
  refine ⟨⟨(i 1).val / 2048, by omega⟩, flush1_3 _, ?_⟩
  rw [mem_blk1_3]
  show (i 1).val / 2048 * 2048 ≤ (i 1).val ∧ (i 1).val < (i 1).val / 2048 * 2048 + (if (i 1).val / 2048 = 48 then 1696 else 2048)
  split <;> omega

end Cert.KernelIdeal.Hand

end
-- ==== Proof.RefValue.lean ====
/-
  The reference's result, index by index, is the specified function of the two argument arrays.

  The reference scales each row of `A` by its length plus a small constant (the squares of a row summed from
  zero, the root taken, the constant added, the quotient taken entry by entry), projects `x` on the scaled rows
  (a sum over all 100000 items), carries the projection back along the same scaled rows (a sum over the 64
  entries, read through a transpose), subtracts `x` and keeps the difference within `[0, 6]`. Read at one
  index each stage is the corresponding definition of the specification.
-/
import proofs.«118275_g39109972197717_cont_8to1_b_158_6_alg».proof.Defs
import proofs.«118275_g39109972197717_cont_8to1_b_158_6_alg».proof.Proof.Gen.ReferenceIdeal
import proofs.«118275_g39109972197717_cont_8to1_b_158_6_alg».proof.Proof.Gen.Pre_finite_inputs
import proofs.«118275_g39109972197717_cont_8to1_b_158_6_alg».proof.Proof.Gen.ReferenceIdeal.Read
import proofs.«118275_g39109972197717_cont_8to1_b_158_6_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-! ## The index functions of the layout operations and of the two contractions, on coordinates -/

/-- Entry `k` of row `n`, as the row sum of the squares reads it through the two broadcasts. -/
theorem idx_norm (n : Fin 100000) (d k : Fin 64) :
    idx_main_call0_v1 (idx_main_call0_v2 (idx_main_v3 (ix2 n d))) k = ix2 n k := by
  funext a; match a with | ⟨0, _⟩ => rfl | ⟨1, _⟩ => rfl

/-- The first contraction reads `x` at row `b`, item `k` … -/
theorem lidx5 (b : Fin 1024) (d : Fin 64) (k : Fin 100000) : lidx_main_v5 (ix2 b d) k = ix2 b k := by
  funext a; match a with | ⟨0, _⟩ => rfl | ⟨1, _⟩ => rfl
/-- … and the scaled table at item `k`, entry `d`. -/
theorem ridx5 (b : Fin 1024) (d : Fin 64) (k : Fin 100000) : ridx_main_v5 (ix2 b d) k = ix2 k d := by
  funext a; match a with | ⟨0, _⟩ => rfl | ⟨1, _⟩ => rfl
/-- The transpose reads entry `(d, n)` at `(n, d)`. -/
theorem idx6 (d : Fin 64) (n : Fin 100000) : idx_main_v6 (ix2 d n) = ix2 n d := by
  funext a; match a with | ⟨0, _⟩ => rfl | ⟨1, _⟩ => rfl
/-- The second contraction reads the projection at row `b`, entry `k` … -/
theorem lidx7 (b : Fin 1024) (n : Fin 100000) (k : Fin 64) : lidx_main_v7 (ix2 b n) k = ix2 b k := by
  funext a; match a with | ⟨0, _⟩ => rfl | ⟨1, _⟩ => rfl
/-- … and the transposed scaled table at entry `k`, item `n`. -/
theorem ridx7 (b : Fin 1024) (n : Fin 100000) (k : Fin 64) : ridx_main_v7 (ix2 b n) k = ix2 k n := by
  funext a; match a with | ⟨0, _⟩ => rfl | ⟨1, _⟩ => rfl

/-! ## The stages at an index -/

/-- The divided table at item `n`, entry `d`, is the scaled row's entry. -/
theorem v4_at (A : (⟨S100000x64, .f32⟩ : BufTy).Contents (Elt Ideal)) (n : Fin 100000) (d : Fin 64) :
    val_main_v4 (F := Ideal) A (ix2 n d) = Cert.Elsa.an A n d := by
  rw [val_main_v4_apply, val_main_v3_apply, val_main_v2_apply, val_main_v1_apply, val_main_cst_apply,
    val_main_v0_apply, val_main_call0_v2_apply, val_main_call0_v1_apply, val_main_call0_cst_apply]
  simp only [val_main_call0_v0_apply, idx_norm, Ideal.hostDivf_def, Ideal.addf_def, Ideal.hostUnary_sqrt_def,
    Ideal.ofBits_def, Ideal.mulf_def, Ideal.ofBits_zero_f32, zero_add]
  rfl

/-- The first contraction at row `b`, entry `d`, is the projection. -/
theorem v5_at (x : (⟨S1024x100000, .f32⟩ : BufTy).Contents (Elt Ideal)) (A : (⟨S100000x64, .f32⟩ : BufTy).Contents (Elt Ideal))
    (b : Fin 1024) (d : Fin 64) : val_main_v5 (F := Ideal) x A (ix2 b d) = Cert.Elsa.xa x A b d := by
  rw [val_main_v5_apply]
  refine Finset.sum_congr rfl fun k _ => ?_
  rw [lidx5, ridx5, v4_at]

/-- The transposed table at entry `d`, item `n`, is the scaled row's entry. -/
theorem v6_at (A : (⟨S100000x64, .f32⟩ : BufTy).Contents (Elt Ideal)) (d : Fin 64) (n : Fin 100000) :
    val_main_v6 (F := Ideal) A (ix2 d n) = Cert.Elsa.an A n d := by
  rw [val_main_v6_apply, idx6, v4_at]

/-- The second contraction at row `b`, item `n`, carries the projection back along the scaled row. -/
theorem v7_at (x : (⟨S1024x100000, .f32⟩ : BufTy).Contents (Elt Ideal)) (A : (⟨S100000x64, .f32⟩ : BufTy).Contents (Elt Ideal))
    (b : Fin 1024) (n : Fin 100000) :
    val_main_v7 (F := Ideal) x A (ix2 b n) = ∑ d : Fin 64, Cert.Elsa.xa x A b d * Cert.Elsa.an A n d := by
  rw [val_main_v7_apply]
  refine Finset.sum_congr rfl fun k _ => ?_
  rw [lidx7, ridx7, v5_at, v6_at]

/-! ## The result -/

/-- The reference run's result term is the specified array. -/
theorem result_eq (x : FVec Ideal S1024x100000 .f32) (A : FVec Ideal S100000x64 .f32) :
    minimumf (F := Ideal) (broadcastInDim S1024x100000 ![] bcast_S_S1024x100000 (id (constant (F := Ideal) S_ .f32 0x40C00000#32))) (maximumf (broadcastInDim S1024x100000 ![] bcast_S_S1024x100000 (id (constant (F := Ideal) S_ .f32 0x00000000#32))) (subf (Host.dotGeneral dot_S1024x64_S64x100000_S1024x100000_1_0_0_1_n_n none (Host.dotGeneral dot_S1024x100000_S100000x64_S1024x64_1_0_0_1_n_n none (x) (Host.divf (F := Ideal) (A) (broadcastInDim S100000x64 ![0, 1] bcast_S100000x1_S100000x64_0_1 (addf (Host.sqrt (broadcastInDim S100000x1 ![0] bcast_S100000_S100000x1_0 (Host.reduceAdd (F := Ideal) (mulf (A) (A)) (constant (F := Ideal) S_ .f32 0x00000000#32) reducesTo_S100000x64_S100000_d1 h_S_))) (broadcastInDim S100000x1 ![] bcast_S_S100000x1 (constant (F := Ideal) S_ .f32 0x2B8CBCCC#32)))))) (transpose S64x100000 [1, 0] (Host.divf (F := Ideal) (A) (broadcastInDim S100000x64 ![0, 1] bcast_S100000x1_S100000x64_0_1 (addf (Host.sqrt (broadcastInDim S100000x1 ![0] bcast_S100000_S100000x1_0 (Host.reduceAdd (F := Ideal) (mulf (A) (A)) (constant (F := Ideal) S_ .f32 0x00000000#32) reducesTo_S100000x64_S100000_d1 h_S_))) (broadcastInDim S100000x1 ![] bcast_S_S100000x1 (constant (F := Ideal) S_ .f32 0x2B8CBCCC#32))))) transposes_S100000x64_S64x100000_1_0)) (x)))
      = Cert.Elsa.yArr x A := by
  refine (val_main_v9_eq (F := Ideal) x A).trans ?_
  funext i
  obtain ⟨b, n, rfl⟩ : ∃ (b : Fin 1024) (n : Fin 100000), i = ix2 b n := ⟨i 0, i 1, eq_ix2 i⟩
  rw [val_main_v9_apply, val_main_call1_v4_apply, val_main_call1_v3_apply, val_main_cst_1_apply,
    val_main_call1_v2_apply, val_main_call1_v1_apply, val_main_call1_v0_apply, val_main_cst_0_apply,
    val_main_v8_apply, v7_at]
  simp only [Ideal.minimumf_def, Ideal.maximumf_def, Ideal.subf_def, Ideal.ofBits_def]
  rfl

/-! ## The run and the frame -/

/-- From any memory with zero counters every weakly fair execution of the reference terminates with the result
    array at the specified function of the argument arrays as they were at the start, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v9) = Cert.Elsa.yArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono (fun _ h c => ⟨(h c).1.trans (result_eq _ _), (h c).2⟩)
    (Cert.ReferenceIdeal.Value.run (F := Ideal) m' ρ')

/-- The reference runs and leaves its argument arrays as they were. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  `y = clip(x · An · Anᵀ − x, 0, 6)` for `x` f32[1024, 100000] and `A` f32[100000, 64], `An` the rows of `A` each
  divided by its length plus a small constant — computed by two pipelined kernels against the plain formula.

  The first kernel walks the 100000 items in 49 stretches of 2048 and accumulates the projection `xa = x · An` in one
  output buffer: the first point stores its stretch's product, every later point adds its own; the last stretch
  overhangs the arrays by 352 items, and there the body first writes zeros over what lies past the arrays' end, so
  those terms are `0 · 0`. The second kernel computes each stretch of 2048 result columns as
  `min 6 (max 0 (xa · Anᵀ − x))`; its last stretch overhangs too, and only the 1696 columns inside the array are
  written back. On the extended reals a change of float format is the identity, a matrix product is the plain sum over
  the shared axis, and a sum does not depend on how it is bracketed or ordered (addition there is commutative and
  associative; no finiteness is used): so the 49 partial sums, the last padded by zero terms, are the sum over all
  items (`Cert.Elsa.sum_blocks`, `fold_blocks`), and both programs end at `Cert.Elsa.yArr x A`.

  The frames. Neither kernel's run is a library instance as it stands (blocks that overhang their arrays: a fetch leaves
  the buffer's tail at words nothing names), so each region's proof data and body obligation are stated here
  (`Data0`, `Data1` over the bodies' triples `Body0`, `Body1`) and the two regions are launched one after the other
  over relational proof data (`Run`). At the word-level instance an entry of the second kernel's matrix product is not
  a function of its own row and column alone, so there the second region's buffers are forgotten: the frame needs no
  value. At the extended reals an entry inside the array depends on the inputs' parts inside their arrays only
  (`local1`), the buffers are named, and the result array is read off the run (`final0`, `final1`).
  The ideal pass rewrote nothing, so `preserves` is `True`.
-/
import proofs.«118275_g39109972197717_cont_8to1_b_158_6_alg».proof.Defs
import proofs.«118275_g39109972197717_cont_8to1_b_158_6_alg».proof.Proof.Gen.Kernel
import proofs.«118275_g39109972197717_cont_8to1_b_158_6_alg».proof.Proof.Gen.KernelIdeal
import proofs.«118275_g39109972197717_cont_8to1_b_158_6_alg».proof.Proof.Gen.ReferenceIdeal
import proofs.«118275_g39109972197717_cont_8to1_b_158_6_alg».proof.Proof.Gen.Pre_finite_inputs
import proofs.«118275_g39109972197717_cont_8to1_b_158_6_alg».proof.Proof.Run
import proofs.«118275_g39109972197717_cont_8to1_b_158_6_alg».proof.Proof.KRun
import proofs.«118275_g39109972197717_cont_8to1_b_158_6_alg».proof.Proof.Value0
import proofs.«118275_g39109972197717_cont_8to1_b_158_6_alg».proof.Proof.Value1
import proofs.«118275_g39109972197717_cont_8to1_b_158_6_alg».proof.Proof.RefValue

noncomputable section

namespace Cert.Proof

open Idealize.ShloMosaic Idealize.ShloMosaic.TcCoe Idealize.SL.Sem

/-- The word-level kernel runs and leaves its arguments as launched: the launch of the two regions with the second
    region's buffers forgotten. -/
theorem frame_k : Cert.frame_Kernel := fun m ρ _ =>
  (θ_run (Cert.Kernel.defs (F := Bits)) _ _).mono (fun _ h c => (h c).2)
    (Cert.Kernel.Hand.run (F := Bits) m ρ (fun _ => true) (fun c => Cert.Kernel.Hand.body_obligation1_forget _ c))

/-- The same of the idealized kernel. -/
theorem frame_ki : Cert.frame_KernelIdeal := fun m ρ _ =>
  (θ_run (Cert.KernelIdeal.defs (F := Ideal)) _ _).mono (fun _ h c => (h c).2)
    (Cert.KernelIdeal.Hand.run (F := Ideal) m ρ (fun _ => true) (fun c => Cert.KernelIdeal.Hand.body_obligation1_forget _ c))

theorem preserves : Cert.preserves_Kernel_KernelIdeal := trivial

open Cert.KernelIdeal Cert.KernelIdeal.Hand in
/-- The second region's arithmetic of the whole projection is the specified result. -/
theorem result1_xa (x : S1024x100000.Idx → EReal) (A : S100000x64.Idx → EReal) :
    result1 (fun j => Cert.Elsa.xa x A (j 0) (j 1)) x A = Cert.Elsa.yArr x A := by
  funext i
  have hi : x i = x (ValueIdx.ix2 (i 0) (i 1)) := congrArg x (ValueIdx.eq_ix2 i)
  unfold result1 Cert.Elsa.yArr Cert.Elsa.y
  exact congrArg (fun z => min (Ideal.ofBits .f32 0x40C00000#32) (max (Ideal.ofBits .f32 0x00000000#32)
    ((∑ d : Fin 64, Cert.Elsa.xa x A (i 0) d * Cert.Elsa.an A (i 1) d) - z))) hi

open Cert.KernelIdeal Cert.KernelIdeal.Hand in
/-- What the idealized kernel leaves in its result array: the second region's write-backs of `min 6 (max 0 (xa · Anᵀ − x))`
    with `xa` what the first region's write-back left, the sum over all items. -/
theorem kernel_result (m : (ℓ : Loc nD τ sig) → Buf (Elt Ideal) ℓ) (c : Dev nD) :
    (dat1 (F := Ideal) (E1 m) c).arrAt 3 cfg1.N
      = Cert.Elsa.yArr (m ((c.tc : Thread nD τ).loc main_arg0)) (m ((c.tc : Thread nD τ).loc main_arg1)) := by
  have e0 : E1 m c main_v0 = fun i => Cert.Elsa.xa (m ((c.tc : Thread nD τ).loc main_arg0)) (m ((c.tc : Thread nD τ).loc main_arg1)) (i 0) (i 1) :=
    (E1_main_v0 m c).trans (final0 (E0 m) c)
  have e1 := E1_main_arg0 m c
  have e2 := E1_main_arg1 m c
  refine (final1 (E1 m) c).trans ?_
  generalize E1 m c main_v0 = P at e0
  generalize E1 m c main_arg0 = X at e1
  generalize E1 m c main_arg1 = B at e2
  subst e0 e1 e2
  exact result1_xa _ _

/-- At the extended reals both programs, run from memories that agree on the arguments, end with the result array at
    `Cert.Elsa.yArr x A`. -/
theorem algebraic : Cert.algebraic_KernelIdeal_ReferenceIdeal := by
  intro m ρ m' ρ' _ hagree
  refine ⟨fun c => Cert.Elsa.yArr (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run (Cert.KernelIdeal.defs (F := Ideal)) _ _).mono (fun r h c => ⟨?_, (h c).2⟩)
      (Cert.KernelIdeal.Hand.run (F := Ideal) m ρ (fun _ => false)
        (fun c => Cert.KernelIdeal.Hand.body_obligation1_exact _ (Cert.KernelIdeal.Hand.local1 _) c))
    have h3 := (h c).1
    rw [Pipeline.Dat.toRForget_arrAt_iff _ (w := 3) rfl] at h3
    exact h3.trans (kernel_result m c)
  · refine (θ_run (Cert.ReferenceIdeal.defs (F := Ideal)) _ _).mono (fun r h c => ⟨?_, (h c).2⟩)
      (Cert.ReferenceIdeal.RefValue.run m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame, preserves, algebraic⟩

end Cert.Proof

end
